-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x16x16x16 : Shape := ⟨5, ![32, 256, 16, 16, 16]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S32x256x16x16x16 : S_.BroadcastsInDim S32x256x16x16x16 (![] : Fin 0 → Fin S32x256x16x16x16.rank)
  reducesTo_S32x256x16x16x16_S_d0_1_2_3_4 : S32x256x16x16x16.ReducesTo [0, 1, 2, 3, 4] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x16x16x16 .f32) (main_arg1 : FVec F S16x256 .f32) (main_arg2 : FVec F S16 .f32) (main_arg3 : FVec F S256x16 .f32) (main_arg4 : FVec F S256 .f32) : IVec S_ 1 :=
  let main_v0 : FVec F S32x256x16x16x16 .f32 := Host.absf main_arg0
  let main_cst : FVec F S_ .f32 := constant S_ .f32 0x7F800000#32
  let main_v1 : FVec F S32x256x16x16x16 .f32 := broadcastInDim S32x256x16x16x16 ![] bcast_S_S32x256x16x16x16 main_cst
  let main_v2 : IVec S32x256x16x16x16 1 := cmpf .olt main_v0 main_v1
  let main_c : IVec S_ 1 := constantI S_ 1 1#1
  let main_v3 : IVec S_ 1 := (fun x v => Host.reduce IntOp.andi x v reducesTo_S32x256x16x16x16_S_d0_1_2_3_4 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S32x256x16x16x16 : Shape := ⟨5, ![32, 256, 16, 16, 16]⟩
abbrev S16x256 : Shape := ⟨2, ![16, 256]⟩
abbrev S16 : Shape := ⟨1, ![16]⟩
abbrev S256x16 : Shape := ⟨2, ![256, 16]⟩
abbrev S256 : Shape := ⟨1, ![256]⟩
abbrev S32x256x4096 : Shape := ⟨3, ![32, 256, 4096]⟩
abbrev S32x4096x256 : Shape := ⟨3, ![32, 4096, 256]⟩
abbrev S1x16 : Shape := ⟨2, ![1, 16]⟩
abbrev S1x256 : Shape := ⟨2, ![1, 256]⟩
abbrev S2x4096x256 : Shape := ⟨3, ![2, 4096, 256]⟩
abbrev S2x256 : Shape := ⟨2, ![2, 256]⟩
abbrev S2x16 : Shape := ⟨2, ![2, 16]⟩
abbrev S2x1x256 : Shape := ⟨3, ![2, 1, 256]⟩

abbrev nBuf : Space → Nat
  | .hbm => 14
  | .vmem => 8
  | .smem => 0
  | _ => 0

abbrev bufTy : (tb : Table) → Fin (tcTables nBuf tb) → BufTy
  | .hbm, ⟨0, _⟩ => ⟨S32x256x16x16x16, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S32x256x4096, .f32⟩
  | .hbm, ⟨6, _⟩ => ⟨S32x4096x256, .f32⟩
  | .hbm, ⟨7, _⟩ => ⟨S256x16, .f32⟩
  | .hbm, ⟨8, _⟩ => ⟨S1x16, .f32⟩
  | .hbm, ⟨9, _⟩ => ⟨S16x256, .f32⟩
  | .hbm, ⟨10, _⟩ => ⟨S1x256, .f32⟩
  | .hbm, ⟨11, _⟩ => ⟨S32x4096x256, .f32⟩
  | .hbm, ⟨12, _⟩ => ⟨S32x256x4096, .f32⟩
  | .hbm, ⟨13, _⟩ => ⟨S32x256x16x16x16, .f32⟩
  | .local _ .vmem, ⟨0, _⟩ => ⟨S2x4096x256, .f32⟩
  | .local _ .vmem, ⟨1, _⟩ => ⟨S2x4096x256, .f32⟩
  | .local _ .vmem, ⟨2, _⟩ => ⟨S256x16, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S2x4096x256, .f32⟩
  | .local _ .vmem, ⟨7, _⟩ => ⟨S2x4096x256, .f32⟩
  | _, _ => ⟨S32x256x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x16x16x16_S32x256x4096 : S32x256x16x16x16.ShapeCasts S32x256x4096
  transposes_S32x256x4096_S32x4096x256_0_2_1 : S32x256x4096.Transposes [0, 2, 1] S32x4096x256
  transposes_S16x256_S256x16_1_0 : S16x256.Transposes [1, 0] S256x16
  shapeCasts_S16_S1x16 : S16.ShapeCasts S1x16
  transposes_S256x16_S16x256_1_0 : S256x16.Transposes [1, 0] S16x256
  shapeCasts_S256_S1x256 : S256.ShapeCasts S1x256
  inb_S2x4096x256_S2x4096x256_0_0_0 : ∀ a, (![0, 0, 0] : Fin 3 → Nat) a + S2x4096x256.size a ≤ S2x4096x256.size a
  h_S2x4096x256 : 0 < S2x4096x256.numel
  shapeCasts_S2x4096x256_S2x4096x256 : S2x4096x256.ShapeCasts S2x4096x256
  reduces_S2x4096x256_S2x256 : S2x4096x256.Reduces [1] S2x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2x16 : S1x16.Broadcasts S2x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2x256 : S1x256.Broadcasts S2x256
  shapeCasts_S2x256_S2x1x256 : S2x256.ShapeCasts S2x1x256
  broadcasts_S2x1x256_S2x4096x256 : S2x1x256.Broadcasts S2x4096x256
  transposes_S32x4096x256_S32x256x4096_0_2_1 : S32x4096x256.Transposes [0, 2, 1] S32x256x4096
  shapeCasts_S32x256x4096_S32x256x16x16x16 : S32x256x4096.ShapeCasts S32x256x16x16x16
  dot_S2x256_S256x16_S2x16_1_0_0_1_n_n_wf : DotDims.WF S2x256 S256x16 S2x16 [1] [0] [0] [1] [] []
  dot_S2x16_S16x256_S2x256_1_0_0_1_n_n_wf : DotDims.WF S2x16 S16x256 S2x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x256.size a ≤ S32x4096x256.size a
  hwx0_0 : ∀ i : grid0.Coords, EltTy.bits .f32 = 32 ∨ (Rect.block (s := S32x4096x256) S2x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x4096x256.size a ≤ S32x4096x256.size a
  hwx0_5 : ∀ i : grid0.Coords, EltTy.bits .f32 = 32 ∨ (Rect.block (s := S32x4096x256) S2x4096x256.size (cc0_transform_5 i) (hinb0_5 i)).WholeWords (EltTy.packing .f32)

variable [Facts₀]

def dot_S2x256_S256x16_S2x16_1_0_0_1_n_n : DotDims S2x256 S256x16 S2x16 where
  lhsContracting := [1]
  rhsContracting := [0]
  lhsNonContracting := [0]
  rhsNonContracting := [1]
  lhsBatch := []
  rhsBatch := []
  wf := dot_S2x256_S256x16_S2x16_1_0_0_1_n_n_wf
def dot_S2x16_S16x256_S2x256_1_0_0_1_n_n : DotDims S2x16 S16x256 S2x256 where
  lhsContracting := [1]
  rhsContracting := [0]
  lhsNonContracting := [0]
  rhsNonContracting := [1]
  lhsBatch := []
  rhsBatch := []
  wf := dot_S2x16_S16x256_S2x256_1_0_0_1_n_n_wf

abbrev win0_0 : Pipeline.Window sig grid0 :=
  Pipeline.Window.ofSpec (Memref.whole main_v1) S2x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2x4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x16x16x16 : Shape := ⟨5, ![32, 256, 16, 16, 16]⟩
abbrev S16x256 : Shape := ⟨2, ![16, 256]⟩
abbrev S16 : Shape := ⟨1, ![16]⟩
abbrev S256x16 : Shape := ⟨2, ![256, 16]⟩
abbrev S256 : Shape := ⟨1, ![256]⟩
abbrev S8192x4096 : Shape := ⟨2, ![8192, 4096]⟩
abbrev S8192x1 : Shape := ⟨2, ![8192, 1]⟩
abbrev S256x2048 : Shape := ⟨2, ![256, 2048]⟩
abbrev S256x1 : Shape := ⟨2, ![256, 1]⟩
abbrev S32x256 : Shape := ⟨2, ![32, 256]⟩
abbrev S1x16 : Shape := ⟨2, ![1, 16]⟩
abbrev S1x256 : Shape := ⟨2, ![1, 256]⟩
abbrev S32x16 : Shape := ⟨2, ![32, 16]⟩

abbrev nBuf : Space → Nat
  | .hbm => 16
  | .vmem => 16
  | .smem => 0
  | _ => 0

abbrev bufTy : (tb : Table) → Fin (tcTables nBuf tb) → BufTy
  | .hbm, ⟨0, _⟩ => ⟨S32x256x16x16x16, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S8192x4096, .f32⟩
  | .hbm, ⟨6, _⟩ => ⟨S8192x1, .f32⟩
  | .hbm, ⟨7, _⟩ => ⟨S32x256, .f32⟩
  | .hbm, ⟨8, _⟩ => ⟨S256x16, .f32⟩
  | .hbm, ⟨9, _⟩ => ⟨S1x16, .f32⟩
  | .hbm, ⟨10, _⟩ => ⟨S16x256, .f32⟩
  | .hbm, ⟨11, _⟩ => ⟨S1x256, .f32⟩
  | .hbm, ⟨12, _⟩ => ⟨S32x256, .f32⟩
  | .hbm, ⟨13, _⟩ => ⟨S8192x1, .f32⟩
  | .hbm, ⟨14, _⟩ => ⟨S8192x4096, .f32⟩
  | .hbm, ⟨15, _⟩ => ⟨S32x256x16x16x16, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S32x256, .f32⟩
  | .local _ .vmem, ⟨5, _⟩ => ⟨S256x16, .f32⟩
  | .local _ .vmem, ⟨6, _⟩ => ⟨S1x16, .f32⟩
  | .local _ .vmem, ⟨7, _⟩ => ⟨S16x256, .f32⟩
  | .local _ .vmem, ⟨8, _⟩ => ⟨S1x256, .f32⟩
  | .local _ .vmem, ⟨9, _⟩ => ⟨S32x256, .f32⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | .local _ .vmem, ⟨14, _⟩ => ⟨S256x2048, .f32⟩
  | .local _ .vmem, ⟨15, _⟩ => ⟨S256x2048, .f32⟩
  | _, _ => ⟨S32x256x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨2, ![32, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S32x256x16x16x16_S8192x4096 : S32x256x16x16x16.ShapeCasts S8192x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  shapeCasts_S8192x1_S32x256 : S8192x1.ShapeCasts S32x256
  transposes_S16x256_S256x16_1_0 : S16x256.Transposes [1, 0] S256x16
  shapeCasts_S16_S1x16 : S16.ShapeCasts S1x16
  transposes_S256x16_S16x256_1_0 : S256x16.Transposes [1, 0] S16x256
  shapeCasts_S256_S1x256 : S256.ShapeCasts S1x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S32x16 : S1x16.Broadcasts S32x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  shapeCasts_S32x256_S8192x1 : S32x256.ShapeCasts S8192x1
  broadcasts_S256x1_S256x2048 : S256x1.Broadcasts S256x2048
  shapeCasts_S8192x4096_S32x256x16x16x16 : S8192x4096.ShapeCasts S32x256x16x16x16
  dot_S32x256_S256x16_S32x16_1_0_0_1_n_n_wf : DotDims.WF S32x256 S256x16 S32x16 [1] [0] [0] [1] [] []
  dot_S32x16_S16x256_S32x256_1_0_0_1_n_n_wf : DotDims.WF S32x16 S16x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x4096.size a
  hwx0_0 : ∀ i : grid0.Coords, EltTy.bits .f32 = 32 ∨ (Rect.block (s := S8192x4096) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x256.size a ≤ S32x256.size a
  hwx1_0 : ∀ i : grid1.Coords, EltTy.bits .f32 = 32 ∨ (Rect.block (s := S32x256) S32x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x16.size a ≤ S256x16.size a
  hwx1_1 : ∀ i : grid1.Coords, EltTy.bits .f32 = 32 ∨ (Rect.block (s := S256x16) S256x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x256.size a ≤ S16x256.size a
  hwx1_3 : ∀ i : grid1.Coords, EltTy.bits .f32 = 32 ∨ (Rect.block (s := S16x256) S16x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x256.size a ≤ S32x256.size a
  hwx1_5 : ∀ i : grid1.Coords, EltTy.bits .f32 = 32 ∨ (Rect.block (s := S32x256) S32x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S8192x4096.size a
  hwx2_0 : ∀ i : grid2.Coords, EltTy.bits .f32 = 32 ∨ (Rect.block (s := S8192x4096) S256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S8192x1.size a
  hwx2_1 : ∀ i : grid2.Coords, EltTy.bits .f32 = 32 ∨ (Rect.block (s := S8192x1) S256x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S8192x4096.size a
  hwx2_2 : ∀ i : grid2.Coords, EltTy.bits .f32 = 32 ∨ (Rect.block (s := S8192x4096) S256x2048.size (cc2_transform_2 i) (hinb2_2 i)).WholeWords (EltTy.packing .f32)

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S32x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S16x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S32x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S256x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== Proof.KernHost.lean ====
/-
  What the five staged arrays hold when the grid starts: re-layouts of the five arguments.

  The argument x : [32, 256, 16, 16, 16] is flattened to [32, 256, 4096] and its last two axes are swapped, giving
  [32, 4096, 256] (batch, voxel, channel); the two weight matrices are transposed; the two biases become single rows.
-/
import proofs.«169195_g2000704654976195_pallasbulk_1081_6_alg».proof.Proof.Gen.KernelIdeal.Frame
import Idealize.ShloMosaic.PureOps.Ideal.Laws

noncomputable section

namespace Cert.KernelIdeal.SeValue

open Cert.KernelIdeal Cert.KernelIdeal.Gen Idealize.ShloMosaic Idealize.ShloMosaic.TcCoe Idealize.SL.Sem

variable (m : (ℓ : Loc nD τ sig) → Buf (Elt Ideal) ℓ)

/-- The first staged array: the argument flattened over its voxels, then voxel and channel axes swapped. -/
theorem V_v1 (c : Dev nD) : (V m c main_v1 : S32x4096x256.Idx → EReal)
    = transpose S32x4096x256 [0, 2, 1]
        (shapeCast S32x256x4096 (m ((c : Thread nD τ).loc main_arg0)) shapeCasts_S32x256x16x16x16_S32x256x4096)
        transposes_S32x256x4096_S32x4096x256_0_2_1 := by
  show StableHlo.after hostOps0 (fun b => m (c, b)) (Proc.devRef .tc main_v1) = _
  after_results
  rfl

/-- The second: the first weight matrix transposed. -/
theorem V_v2 (c : Dev nD) : (V m c main_v2 : S256x16.Idx → EReal)
    = transpose S256x16 [1, 0] (m ((c : Thread nD τ).loc main_arg1)) transposes_S16x256_S256x16_1_0 := by
  show StableHlo.after hostOps0 (fun b => m (c, b)) (Proc.devRef .tc main_v2) = _
  after_results

/-- The third: the first bias as one row. -/
theorem V_v3 (c : Dev nD) : (V m c main_v3 : S1x16.Idx → EReal)
    = shapeCast S1x16 (m ((c : Thread nD τ).loc main_arg2)) shapeCasts_S16_S1x16 := by
  show StableHlo.after hostOps0 (fun b => m (c, b)) (Proc.devRef .tc main_v3) = _
  after_results
  rfl

/-- The fourth: the second weight matrix transposed. -/
theorem V_v4 (c : Dev nD) : (V m c main_v4 : S16x256.Idx → EReal)
    = transpose S16x256 [1, 0] (m ((c : Thread nD τ).loc main_arg3)) transposes_S256x16_S16x256_1_0 := by
  show StableHlo.after hostOps0 (fun b => m (c, b)) (Proc.devRef .tc main_v4) = _
  after_results

/-- The fifth: the second bias as one row. -/
theorem V_v5 (c : Dev nD) : (V m c main_v5 : S1x256.Idx → EReal)
    = shapeCast S1x256 (m ((c : Thread nD τ).loc main_arg4)) shapeCasts_S256_S1x256 := by
  show StableHlo.after hostOps0 (fun b => m (c, b)) (Proc.devRef .tc main_v5) = _
  after_results
  rfl

end Cert.KernelIdeal.SeValue

end
-- ==== Proof.LibPlainDot.lean ====
/-
  A plain matrix product read at an entry.

  For an [M, K] by [K, N] product with no batch axis, contracting the left operand's columns against the right operand's
  rows, the operand indices at the result entry (p, o) and the contraction coordinate q are (p, q) and (q, o). So at the
  ideal values the product accumulated onto the zero splat is, at (p, o), the sum over q of lhs (p, q) · rhs (q, o).
-/
import Idealize.ShloMosaic.PureOps.Ideal.Laws
import Idealize.ShloMosaic.Lib.ValueIdx

noncomputable section

namespace Cert.LibPlainDot

open Idealize.ShloMosaic Idealize.ShloMosaic.ValueIdx

/-- The left operand's index at result entry (p, o) and contraction coordinate q is (p, q). -/
theorem plain_lhsIdx {M K N : ℕ} (p : Fin M) (o : Fin N) (q : Fin K) :
    (DotDims.plain M K N).lhsIdx (ix2 p o) ((contrEquiv1 (DotDims.plain M K N) K rfl rfl).symm q) = ix2 p q :=
  funext fun a => Fin.ext (by
    match a with
    | ⟨0, _⟩ => rfl
    | ⟨1, _⟩ => exact contrEquiv1_symm_val (DotDims.plain M K N) K rfl rfl q)

/-- The right operand's index at result entry (p, o) and contraction coordinate q is (q, o). -/
theorem plain_rhsIdx {M K N : ℕ} (p : Fin M) (o : Fin N) (q : Fin K) :
    (DotDims.plain M K N).rhsIdx (ix2 p o) ((contrEquiv1 (DotDims.plain M K N) K rfl rfl).symm q) = ix2 q o :=
  funext fun a => Fin.ext (by
    match a with
    | ⟨0, _⟩ => exact contrEquiv1_symm_val (DotDims.plain M K N) K rfl rfl q
    | ⟨1, _⟩ => rfl)

/-- A plain product onto the zero splat, read at (p, o): the sum over the contraction coordinate. -/
theorem plain_matmul_zero_apply {M K N : ℕ} {φ₁ φ₂ : FTy} (prec : Option ContractPrecision)
    (lhs : FVec Ideal ⟨2, ![M, K]⟩ φ₁) (rhs : FVec Ideal ⟨2, ![K, N]⟩ φ₂) (p : Fin M) (o : Fin N) :
    FloatOps.matmul (DotDims.plain M K N) prec lhs rhs (constant ⟨2, ![M, N]⟩ .f32 0x00000000#32) (ix2 p o)
      = ∑ q : Fin K, lhs (ix2 p q) * rhs (ix2 q o) := by
  rw [Ideal.matmul_constant_zero_apply, ← Equiv.sum_comp (contrEquiv1 (DotDims.plain M K N) K rfl rfl).symm]
  refine Finset.sum_congr rfl fun q _ => ?_
  rw [plain_lhsIdx, plain_rhsIdx]

end Cert.LibPlainDot

end
-- ==== Proof.LibSlabLayout.lean ====
/-
  Two layout operations on arrays of rank three, read at an index given by its coordinates.

  A matrix [a, n] re-laid with a unit middle axis as [a, 1, n] reads, at (e, 0, o), the matrix at (e, o): the row-major
  position is the same. A rank-three array cut along its LAST axis from `off` reads, at (e, r, j), the source at
  (e, r, off + j).
-/
import Idealize.ShloMosaic.Lib.Pipeline.Value
import Idealize.ShloMosaic.Lib.ValueIdx

namespace Cert.LibSlabLayout

open Idealize.ShloMosaic Idealize.ShloMosaic.ValueIdx

variable {α : Type}

/-- A matrix `[a, n]` re-laid as `[a, 1, n]` reads, at `(e, 0, o)`, the matrix at `(e, o)`. -/
theorem shapeCast_an_a1n_apply {a n : ℕ} (x : (⟨2, ![a, n]⟩ : Shape).Idx → α)
    (h : (⟨2, ![a, n]⟩ : Shape).ShapeCasts ⟨3, ![a, 1, n]⟩) (e : Fin a) (u : Fin 1) (o : Fin n) :
    shapeCast ⟨3, ![a, 1, n]⟩ x h (ix3 e u o) = x (ix2 e o) :=
  shapeCast_apply x h _ _ (by
    have hu : u.val = 0 := by omega
    rw [Shape.rowMajor_val_three, Shape.rowMajor_val_two]
    show e.val * n + o.val = (e.val * 1 + u.val) * n + o.val
    rw [hu, Nat.mul_one, Nat.add_zero])

/-- A rank-3 array cut along its last axis from `off` reads, at `(e, r, j)`, the source at `(e, r, k)` with `k = off + j`. -/
theorem slice3_axis2_apply {n0 n1 n2 w : ℕ} (off : ℕ) (X : (⟨3, ![n0, n1, n2]⟩ : Shape).Idx → α)
    (h : (⟨3, ![n0, n1, n2]⟩ : Shape).Slices ![0, 0, off] ⟨3, ![n0, n1, w]⟩)
    (e : Fin n0) (r : Fin n1) (j : Fin w) (k : Fin n2) (hk : k.val = off + j.val) :
    extractStridedSlice ⟨3, ![n0, n1, w]⟩ ![0, 0, off] X h (ix3 e r j) = X (ix3 e r k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibSlabLayout
-- ==== Proof.LibMidAxis.lean ====
/-
  Two operations along the MIDDLE axis of a rank-three array, read at an index given by its coordinates.

  Reducing an [a, n, b] array along its middle axis with the additive accumulator at zero gives, at the ideal values, the
  [a, b] matrix whose entry (e, c) is the sum over the n middle coordinates s of the array's entry (e, s, c): the source
  index over result entry (e, c) with coordinate s on the dropped axis is (e, s, c). Spreading an [a, 1, b] array over
  [a, n, b] is a re-indexing: the spread array at (e, s, c) is the operand at (e, 0, c).
-/
import Idealize.ShloMosaic.PureOps.Ideal.Laws
import Idealize.ShloMosaic.Lib.Pipeline.Value
import Idealize.ShloMosaic.Lib.ValueIdx

noncomputable section

namespace Cert.LibMidAxis

open Idealize.ShloMosaic Idealize.ShloMosaic.ValueIdx

/-- The source index over result entry (e, c) with s on the dropped middle axis is (e, s, c). -/
theorem lift_mid {a n b : ℕ} (h : (⟨3, ![a, n, b]⟩ : Shape).Reduces [1] ⟨2, ![a, b]⟩) (e : Fin a) (c : Fin b) (s : Fin n) :
    h.lift (ix2 e c) s = ix3 e s c :=
  funext fun d => Fin.ext (by match d with | ⟨0, _⟩ => rfl | ⟨1, _⟩ => rfl | ⟨2, _⟩ => rfl)

/-- An additive reduction of an [a, n, b] array along its middle axis from the zero word, read at (e, c): the sum over
    the n middle coordinates. -/
theorem mid_sum_apply {a n b : ℕ} (src : FVec Ideal ⟨3, ![a, n, b]⟩ .f32)
    (h : (⟨3, ![a, n, b]⟩ : Shape).Reduces [1] ⟨2, ![a, b]⟩) (hφ : FKind.Formats .f32)
    (hacc : (0x00000000#32 : BitVec FTy.f32.bits) = FKind.add.neutral .f32 hφ) (e : Fin a) (c : Fin b) :
    multiReduction .add [1] ⟨2, ![a, b]⟩ src 0x00000000#32 h hφ hacc (ix2 e c) = ∑ s : Fin n, src (ix3 e s c) :=
  (Ideal.multiReduction_add_single src 0x00000000#32 h hφ hacc (ix2 e c)).trans
    (Finset.sum_congr rfl fun s _ => congrArg src (lift_mid h e c s))

/-- An [a, 1, b] array spread over [a, n, b] reads, at (e, s, c), the operand at (e, 0, c). -/
theorem broadcastTo_a1b_anb_apply {α : Type} {a n b : ℕ} (v : (⟨3, ![a, 1, b]⟩ : Shape).Idx → α)
    (h : (⟨3, ![a, 1, b]⟩ : Shape).Broadcasts ⟨3, ![a, n, b]⟩) (e : Fin a) (s : Fin n) (c : Fin b) :
    broadcastTo ⟨3, ![a, n, b]⟩ v h (ix3 e s c) = v (ix3 e (0 : Fin 1) c) := by
  refine broadcastTo_apply v h (ix3 e s c) (ix3 e (0 : Fin 1) c) fun ax => ?_
  match ax with
  | ⟨0, _⟩ =>
    show e.val = if a = 1 then 0 else e.val
    split
    · have := e.isLt; omega
    · rfl
  | ⟨1, _⟩ => rfl
  | ⟨2, _⟩ =>
    show c.val = if b = 1 then 0 else c.val
    split
    · have := c.isLt; omega
    · rfl

end Cert.LibMidAxis

end
-- ==== Proof.KernPayload.lean ====
/-
  The arithmetic of one grid step of the fused block, read at one entry.

  A step holds two batches: a block x0 of shape [2, 4096, 256] (batch, voxel, channel), the first weight matrix laid
  [256, 16] (x1 (k, j) = w1 (j, k)), the first bias as a row [1, 16], the second weight matrix laid [16, 256]
  (x3 (j, c) = w2 (c, j)) and the second bias as a row [1, 256]. The step sums x0 over the voxel axis (the middle axis),
  scales by 2⁻¹², applies the two affine layers with the positive part between them and the logistic function after,
  and multiplies every voxel of channel c in batch e by the resulting gate of (e, c).
-/
import proofs.«169195_g2000704654976195_pallasbulk_1081_6_alg».proof.Proof.Gen.KernelIdeal.Skeleton
import proofs.«169195_g2000704654976195_pallasbulk_1081_6_alg».proof.Proof.LibPlainDot
import proofs.«169195_g2000704654976195_pallasbulk_1081_6_alg».proof.Proof.LibSlabLayout
import proofs.«169195_g2000704654976195_pallasbulk_1081_6_alg».proof.Proof.LibMidAxis
import Idealize.ShloMosaic.Lib.ValueLayout

noncomputable section

namespace Cert.KernelIdeal.SeValue

open Cert.KernelIdeal Idealize.ShloMosaic Idealize.ShloMosaic.ValueIdx Cert.LibMidAxis

/-- The gate one step computes for batch e (of its two) and channel c, from the step's five blocks. -/
def stepGate (x0 : Vec Ideal S2x4096x256 .f32) (x1 : Vec Ideal S256x16 .f32) (x2 : Vec Ideal S1x16 .f32)
    (x3 : Vec Ideal S16x256 .f32) (x4 : Vec Ideal S1x256 .f32) (e : Fin 2) (c : Fin 256) : EReal :=
  Ideal.logistic ((∑ j : Fin 16,
      max ((∑ k : Fin 256, (∑ s : Fin 4096, x0 (ix3 e s k)) * Ideal.ofBits .f32 0x39800000#32 * x1 (ix2 k j))
          + x2 (ix2 (0 : Fin 1) j)) (Ideal.ofBits .f32 0x00000000#32)
        * x3 (ix2 j c)) + x4 (ix2 (0 : Fin 1) c))

/-- The step at an entry: voxel (e, s, c) of the block times the gate of (e, c). -/
theorem pay_apply (x0 : Vec Ideal S2x4096x256 .f32) (x1 : Vec Ideal S256x16 .f32) (x2 : Vec Ideal S1x16 .f32)
    (x3 : Vec Ideal S16x256 .f32) (x4 : Vec Ideal S1x256 .f32) (e : Fin 2) (s : Fin 4096) (c : Fin 256) :
    Gen.k0_pay1 x0 x1 x2 x3 x4 (ix3 e s c) = x0 (ix3 e s c) * stepGate x0 x1 x2 x3 x4 e c := by
  unfold Gen.k0_pay1 stepGate
  dsimp only
  simp only [shapeCast_self]
  rw [mulf_apply]
  refine congrArg (x0 (ix3 e s c) * ·) ?_
  rw [broadcastTo_a1b_anb_apply, Cert.LibSlabLayout.shapeCast_an_a1n_apply]
  show Ideal.logistic (matmul (F := Ideal) _ none _ _ _ (ix2 e c) + broadcastTo S2x256 _ _ (ix2 e c)) = _
  rw [broadcastTo_1b_ab_apply]
  refine congrArg (fun z => Ideal.logistic (z + x4 (ix2 (0 : Fin 1) c))) ?_
  refine (Cert.LibPlainDot.plain_matmul_zero_apply (M := 2) (K := 16) (N := 256) none _ _ e c).trans ?_
  refine Finset.sum_congr rfl fun j _ => ?_
  refine congrArg (· * x3 (ix2 j c)) ?_
  show max (matmul (F := Ideal) _ none _ _ _ (ix2 e j) + broadcastTo S2x16 _ _ (ix2 e j)) (Ideal.ofBits .f32 0x00000000#32) = _
  rw [broadcastTo_1b_ab_apply]
  refine congrArg (fun z => max (z + x2 (ix2 (0 : Fin 1) j)) (Ideal.ofBits .f32 0x00000000#32)) ?_
  refine (Cert.LibPlainDot.plain_matmul_zero_apply (M := 2) (K := 256) (N := 16) none _ _ e j).trans ?_
  refine Finset.sum_congr rfl fun k _ => ?_
  refine congrArg (· * x1 (ix2 k j)) ?_
  show multiReduction (F := Ideal) .add [1] S2x256 _ _ _ _ _ (ix2 e k) * Ideal.ofBits .f32 0x39800000#32 = _
  refine congrArg (· * Ideal.ofBits .f32 0x39800000#32) ?_
  exact mid_sum_apply x0 _ _ _ e k

end Cert.KernelIdeal.SeValue

end
-- ==== Proof.KernBlocks.lean ====
/-
  From the sixteen grid steps to the whole result array.

  Step t holds batches 2t and 2t + 1 of the staged input [32, 4096, 256] and the four small arrays whole, and writes
  back batches 2t and 2t + 1 of the result. Every entry a step writes is the staged input's entry times the gate of its
  batch and channel, and the gate of batch B depends on the staged input only through batch B, which the step holds. So
  the result array is one function of the five staged arrays, and the sixteen blocks cover it.
-/
import proofs.«169195_g2000704654976195_pallasbulk_1081_6_alg».proof.Proof.Gen.KernelIdeal.Frame
import proofs.«169195_g2000704654976195_pallasbulk_1081_6_alg».proof.Proof.KernPayload
import Idealize.ShloMosaic.Lib.Pipeline.Value

set_option maxRecDepth 16384

noncomputable section

namespace Cert.KernelIdeal.SeValue

open Cert.KernelIdeal Cert.KernelIdeal.Gen Idealize.ShloMosaic Idealize.ShloMosaic.TcCoe Idealize.SL.Sem
open Idealize.ShloMosaic.ValueIdx
open Idealize.ShloMosaic.Pipeline (Dat)

/-- The gate of batch B and channel c from the staged arrays (voxel sums over the middle axis of the staged input). -/
def arrGate (X0 : S32x4096x256.Idx → EReal) (x1 : S256x16.Idx → EReal) (x2 : S1x16.Idx → EReal)
    (x3 : S16x256.Idx → EReal) (x4 : S1x256.Idx → EReal) (B : Fin 32) (c : Fin 256) : EReal :=
  Ideal.logistic ((∑ j : Fin 16,
      max ((∑ k : Fin 256, (∑ s : Fin 4096, X0 (ix3 B s k)) * Ideal.ofBits .f32 0x39800000#32 * x1 (ix2 k j))
          + x2 (ix2 (0 : Fin 1) j)) (Ideal.ofBits .f32 0x00000000#32)
        * x3 (ix2 j c)) + x4 (ix2 (0 : Fin 1) c))

/-- The result array as one function of the staged arrays: entry (B, s, c) is the staged input there times the gate of (B, c). -/
def arrOut (X0 : S32x4096x256.Idx → EReal) (x1 : S256x16.Idx → EReal) (x2 : S1x16.Idx → EReal)
    (x3 : S16x256.Idx → EReal) (x4 : S1x256.Idx → EReal) : S32x4096x256.Idx → EReal :=
  fun i => X0 i * arrGate X0 x1 x2 x3 x4 (i 0) (i 2)

/-- A step whose block holds batch B of the staged input at its batch e computes, at (e, s, c), the result array's
    entry (B, s, c). -/
theorem step_eq_arr (X0 : S32x4096x256.Idx → EReal) (x0 : Vec Ideal S2x4096x256 .f32) (x1 : Vec Ideal S256x16 .f32)
    (x2 : Vec Ideal S1x16 .f32) (x3 : Vec Ideal S16x256 .f32) (x4 : Vec Ideal S1x256 .f32) (B : Fin 32) (e : Fin 2)
    (h0 : ∀ (s : Fin 4096) (k : Fin 256), x0 (ix3 e s k) = X0 (ix3 B s k)) (s : Fin 4096) (c : Fin 256) :
    Gen.k0_pay1 x0 x1 x2 x3 x4 (ix3 e s c) = arrOut X0 x1 x2 x3 x4 (ix3 B s c) := by
  rw [pay_apply]
  unfold stepGate arrOut arrGate
  simp only [h0]

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the big input and the result move along the batch axis with the step, and
    every other block index is zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (m : (ℓ : Loc nD τ sig) → Buf (Elt Ideal) ℓ)

/-- The small arrays' blocks are the arrays whole. -/
theorem iblk1 (c : Dev nD) (t : Fin cfg0.N) : iblk m c 1 t = V m c main_v2 := by
  obtain ⟨-, -, -, -, -, -, e0, e1, -⟩ := idx_facts t
  funext y
  show V m c main_v2 (((cfg0.win 1).blk t).view.emb y) = V m c main_v2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 16 + 1 * (y 1).val = (y 1).val; omega

theorem iblk2 (c : Dev nD) (t : Fin cfg0.N) : iblk m c 2 t = V m c main_v3 := by
  obtain ⟨-, -, -, -, -, -, -, -, e0, e1, -⟩ := idx_facts t
  funext y
  show V m c main_v3 (((cfg0.win 2).blk t).view.emb y) = V m c main_v3 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega

theorem iblk3 (c : Dev nD) (t : Fin cfg0.N) : iblk m c 3 t = V m c main_v4 := by
  obtain ⟨-, -, -, -, -, -, -, -, -, -, e0, e1, -⟩ := idx_facts t
  funext y
  show V m c main_v4 (((cfg0.win 3).blk t).view.emb y) = V m c main_v4 y
  refine congrArg _ (funext fun a => Fin.ext ?_)
  match a with
  | ⟨0, _⟩ => show win0_3.index t (0 : Fin 2) * 16 + 1 * (y 0).val = (y 0).val; omega
  | ⟨1, _⟩ => show win0_3.index t (1 : Fin 2) * 256 + 1 * (y 1).val = (y 1).val; omega

theorem iblk4 (c : Dev nD) (t : Fin cfg0.N) : iblk m c 4 t = V m c main_v5 := by
  obtain ⟨-, -, -, -, -, -, -, -, -, -, -, -, e0, e1⟩ := idx_facts t
  funext y
  show V m c main_v5 (((cfg0.win 4).blk t).view.emb y) = V m c main_v5 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- What step t writes back is block t of the result array. -/
theorem flushed_eq (c : Dev nD) (t : Fin cfg0.N) :
    (dats m 0 c).flushed 5 t = ((cfg0.win 5).blk t).view.read (Elt Ideal)
      (arrOut (V m c main_v1) (V m c main_v2) (V m c main_v3) (V m c main_v4) (V m c main_v5)) := by
  show (cfg0.win 5).cut (grid0.coords t) ((dats m 0 c).after 5 t) = _
  rw [after0_5]
  unfold out0_5
  rw [View.canon_unit_zero hz3]
  simp only [View.ld_unit_zero (S := S2x4096x256) hz3, View.ld_unit_zero (S := S256x16) hz2,
    View.ld_unit_zero (S := S1x16) hz2, View.ld_unit_zero (S := S16x256) hz2, View.ld_unit_zero (S := S1x256) hz2]
  rw [iblk1, iblk2, iblk3, iblk4]
  obtain ⟨e0, e1, e2, f0, f1, f2, -⟩ := idx_facts t
  funext y
  have hN : cfg0.N = 16 := N_0
  have ht : t.val < 16 := hN ▸ t.isLt
  have hy0 : (y 0).val < 2 := (y 0).isLt
  show Gen.k0_pay1 (iblk m c 0 t) (V m c main_v2) (V m c main_v3) (V m c main_v4) (V m c main_v5) y
    = arrOut (V m c main_v1) (V m c main_v2) (V m c main_v3) (V m c main_v4) (V m c main_v5) (((cfg0.win 5).blk t).view.emb y)
  refine (congrArg (Gen.k0_pay1 (iblk m c 0 t) (V m c main_v2) (V m c main_v3) (V m c main_v4) (V m c main_v5)) (eq_ix3 y)).trans ?_
  refine (step_eq_arr (V m c main_v1) (iblk m c 0 t) (V m c main_v2) (V m c main_v3) (V m c main_v4) (V m c main_v5)
    ⟨t.val * 2 + (y 0).val, by omega⟩ (y 0) ?_ (y 1) (y 2)).trans ?_
  · intro s k
    show V m c main_v1 (((cfg0.win 0).blk t).view.emb (ix3 (y 0) s k)) = V m c main_v1 (ix3 ⟨t.val * 2 + (y 0).val, by omega⟩ s k)
    refine congrArg _ (funext fun a => Fin.ext ?_)
    match a with
    | ⟨0, _⟩ => show win0_0.index t (0 : Fin 3) * 2 + 1 * (y 0).val = t.val * 2 + (y 0).val; omega
    | ⟨1, _⟩ => show win0_0.index t (1 : Fin 3) * 4096 + 1 * s.val = s.val; omega
    | ⟨2, _⟩ => show win0_0.index t (2 : Fin 3) * 256 + 1 * k.val = k.val; omega
  · refine congrArg (arrOut (V m c main_v1) (V m c main_v2) (V m c main_v3) (V m c main_v4) (V m c main_v5)) (funext fun a => Fin.ext ?_)
    match a with
    | ⟨0, _⟩ => show t.val * 2 + (y 0).val = win0_5.index t (0 : Fin 3) * 2 + 1 * (y 0).val; omega
    | ⟨1, _⟩ => show (y 1).val = win0_5.index t (1 : Fin 3) * 4096 + 1 * (y 1).val; omega
    | ⟨2, _⟩ => show (y 2).val = win0_5.index t (2 : Fin 3) * 256 + 1 * (y 2).val; omega

/-- An index of the result array is in step t's block iff each coordinate is in the block's range on its axis. -/
theorem mem_blk (t : Fin cfg0.N) (i : S32x4096x256.Idx) :
    i ∈ ((cfg0.win 5).blk t).view.set ↔ ∀ a : Fin 3, win0_5.index t a * S2x4096x256.size a ≤ (i a).val
      ∧ (i a).val < win0_5.index t a * S2x4096x256.size a + S2x4096x256.size a := by
  show i ∈ ((View.whole main_v6).slice (win0_5.rect t)).set ↔ _
  rw [View.set_slice_whole, Rect.mem_set_unit]
  exact Iff.rfl

/-- Every entry of the result array is in some step's block: batch B is in step B / 2's. -/
theorem cover (i : S32x4096x256.Idx) :
    ∃ t : Fin cfg0.N, (cfg0.win 5).flush t = true ∧ i ∈ ((cfg0.win 5).blk t).view.set := by
  have hN : cfg0.N = 16 := N_0
  have hi0 : (i 0).val < 32 := (i 0).isLt
  have hi1 : (i 1).val < 4096 := (i 1).isLt
  have hi2 : (i 2).val < 256 := (i 2).isLt
  refine ⟨⟨(i 0).val / 2, by omega⟩, flush0_5 _, ?_⟩
  rw [mem_blk]
  obtain ⟨-, -, -, f0, f1, f2, -⟩ := idx_facts ⟨(i 0).val / 2, by omega⟩
  intro a
  match a with
  | ⟨0, _⟩ =>
    show win0_5.index ⟨(i 0).val / 2, _⟩ (0 : Fin 3) * 2 ≤ (i 0).val ∧ (i 0).val < win0_5.index ⟨(i 0).val / 2, _⟩ (0 : Fin 3) * 2 + 2
    rw [f0]; show (i 0).val / 2 * 2 ≤ (i 0).val ∧ (i 0).val < (i 0).val / 2 * 2 + 2; omega
  | ⟨1, _⟩ =>
    show win0_5.index ⟨(i 0).val / 2, _⟩ (1 : Fin 3) * 4096 ≤ (i 1).val ∧ (i 1).val < win0_5.index ⟨(i 0).val / 2, _⟩ (1 : Fin 3) * 4096 + 4096
    rw [f1]; omega
  | ⟨2, _⟩ =>
    show win0_5.index ⟨(i 0).val / 2, _⟩ (2 : Fin 3) * 256 ≤ (i 2).val ∧ (i 2).val < win0_5.index ⟨(i 0).val / 2, _⟩ (2 : Fin 3) * 256 + 256
    rw [f2]; omega

/-- The result array after the sixteen steps: one function of the staged arrays. -/
theorem final (c : Dev nD) : (dats m 0 c).arrAt 5 cfg0.N
    = arrOut (V m c main_v1) (V m c main_v2) (V m c main_v3) (V m c main_v4) (V m c main_v5) :=
  (dats m 0 c).arrAt_eq_of_cover 5 _ (fun t _ => flushed_eq m c t) cover

end Cert.KernelIdeal.SeValue

end
-- ==== Proof.SeSpec.lean ====
/-
  A squeeze-and-excitation block over a batch of 32 volumes of 256 channels and 16·16·16 = 4096 voxels, as one function
  of its five argument arrays at the ideal values.

  For batch b and channel c let S(b, c) be the sum of the input over the 4096 voxels of that channel. The gate is
      g(b, c) = logistic( Σ_j max( Σ_k (S(b, k) · 2⁻¹²) · w1(j, k) + b1(j), 0 ) · w2(c, j) + b2(c) ),
  and every voxel of channel c in batch b is multiplied by g(b, c).

  Two programs compute it. One views the input as [32, 256, 4096] and sums a channel's voxels in one sum; the other views
  it as [8192, 4096], row r = b · 256 + c, and adds the two halves of a row, 2048 voxels each, onto a zero. Both are
  stated here over the flat views of the rank-5 argument, so that neither mentions a coordinate of the rank-5 shape.
-/
import Idealize.ShloMosaic.PureOps.Ideal.Laws
import Idealize.ShloMosaic.Lib.ValueIdx

noncomputable section

namespace Cert.SeSpec

open Idealize.ShloMosaic Idealize.ShloMosaic.ValueIdx

/-- The argument's shape, and its two flat views. -/
abbrev T5 : Shape := ⟨5, ![32, 256, 16, 16, 16]⟩
abbrev T3 : Shape := ⟨3, ![32, 256, 4096]⟩
abbrev T2 : Shape := ⟨2, ![8192, 4096]⟩

/-- The gate of channel `c` in batch `b`, from the per-(batch, channel) voxel sums `S`: the mean (the sum times 2⁻¹²)
    through the first affine layer, the positive part, the second affine layer, the logistic function. -/
def gate (S : Fin 32 → Fin 256 → EReal) (w1 : (⟨2, ![16, 256]⟩ : Shape).Idx → EReal) (b1 : (⟨1, ![16]⟩ : Shape).Idx → EReal)
    (w2 : (⟨2, ![256, 16]⟩ : Shape).Idx → EReal) (b2 : (⟨1, ![256]⟩ : Shape).Idx → EReal) (b : Fin 32) (c : Fin 256) : EReal :=
  Ideal.logistic ((∑ j : Fin 16,
      max ((∑ k : Fin 256, S b k * Ideal.ofBits .f32 0x39800000#32 * w1 (ix2 j k)) + b1 (ix1 j)) (Ideal.ofBits .f32 0x00000000#32)
        * w2 (ix2 c j)) + b2 (ix1 c))

/-- A channel's voxel sum in the [32, 256, 4096] view: one sum over the 4096 voxels. -/
def voxelSum (x3 : T3.Idx → EReal) (b : Fin 32) (k : Fin 256) : EReal := ∑ s : Fin 4096, x3 (ix3 b k s)

/-- A row's sum in the [8192, 4096] view as two halves added onto a zero: first the 2048 leading entries, then the 2048
    trailing ones. -/
def halvesSum (x2 : T2.Idx → EReal) (r : Fin 8192) : EReal :=
  (Ideal.ofBits .f32 0x00000000#32 + ∑ k : Fin 2048, x2 (ix2 r ⟨k.val, by omega⟩))
    + ∑ k : Fin 2048, x2 (ix2 r ⟨2048 + k.val, by omega⟩)

/-- The block's result through the [32, 256, 4096] view: voxel (b, c, s) times the gate of (b, c), the gate from the
    one-sum voxel sums; laid back in the argument's shape. -/
def viaChannels (h53 : T5.ShapeCasts T3) (h35 : T3.ShapeCasts T5) (x : T5.Idx → EReal)
    (w1 : (⟨2, ![16, 256]⟩ : Shape).Idx → EReal) (b1 : (⟨1, ![16]⟩ : Shape).Idx → EReal)
    (w2 : (⟨2, ![256, 16]⟩ : Shape).Idx → EReal) (b2 : (⟨1, ![256]⟩ : Shape).Idx → EReal) : T5.Idx → EReal :=
  shapeCast T5 (fun j : T3.Idx => shapeCast T3 x h53 j * gate (voxelSum (shapeCast T3 x h53)) w1 b1 w2 b2 (j 0) (j 1)) h35

/-- The block's result through the [8192, 4096] view: entry (r, s) times the gate of (r / 256, r % 256), the gate from
    the two-halves row sums at row b · 256 + k; laid back in the argument's shape. -/
def viaRows (h52 : T5.ShapeCasts T2) (h25 : T2.ShapeCasts T5) (x : T5.Idx → EReal)
    (w1 : (⟨2, ![16, 256]⟩ : Shape).Idx → EReal) (b1 : (⟨1, ![16]⟩ : Shape).Idx → EReal)
    (w2 : (⟨2, ![256, 16]⟩ : Shape).Idx → EReal) (b2 : (⟨1, ![256]⟩ : Shape).Idx → EReal) : T5.Idx → EReal :=
  shapeCast T5 (fun j : T2.Idx => shapeCast T2 x h52 j
      * gate (fun b k => halvesSum (shapeCast T2 x h52) ⟨b.val * 256 + k.val, by have := b.isLt; have := k.isLt; omega⟩) w1 b1 w2 b2
          ⟨(j 0).val / 256, by have h : (j 0).val < 8192 := (j 0).isLt; omega⟩ ⟨(j 0).val % 256, Nat.mod_lt _ (by norm_num)⟩) h25

end Cert.SeSpec

end
-- ==== Proof.KernChannels.lean ====
/-
  The result array, laid back in the argument's shape, is the block's specification through the [32, 256, 4096] view.

  The staged input is the flat view x3 of the argument with voxel and channel axes swapped, so swapping them back gives,
  at (b, c, s), x3 (b, c, s) times the gate of (b, c); the voxel sums over the staged input's middle axis are the flat
  view's sums over its last axis; the transposed weight matrices read w1 (j, k) and w2 (c, j); the bias rows read the
  bias vectors.
-/
import proofs.«169195_g2000704654976195_pallasbulk_1081_6_alg».proof.Proof.KernBlocks
import proofs.«169195_g2000704654976195_pallasbulk_1081_6_alg».proof.Proof.SeSpec
import Idealize.ShloMosaic.Lib.ValueLayout

noncomputable section

namespace Cert.KernelIdeal.SeValue

open Cert.KernelIdeal Cert.KernelIdeal.Gen Idealize.ShloMosaic Idealize.ShloMosaic.ValueIdx

/-- The result array of the staged re-layouts of the arguments, with its last two axes swapped back and laid in the
    argument's shape, is the specification. -/
theorem arrOut_staged_eq (x : S32x256x16x16x16.Idx → EReal) (w1 : S16x256.Idx → EReal) (b1 : S16.Idx → EReal)
    (w2 : S256x16.Idx → EReal) (b2 : S256.Idx → EReal) :
    shapeCast S32x256x16x16x16
        (transpose S32x256x4096 [0, 2, 1]
          (arrOut
            (transpose S32x4096x256 [0, 2, 1] (shapeCast S32x256x4096 x shapeCasts_S32x256x16x16x16_S32x256x4096)
              transposes_S32x256x4096_S32x4096x256_0_2_1)
            (transpose S256x16 [1, 0] w1 transposes_S16x256_S256x16_1_0)
            (shapeCast S1x16 b1 shapeCasts_S16_S1x16)
            (transpose S16x256 [1, 0] w2 transposes_S256x16_S16x256_1_0)
            (shapeCast S1x256 b2 shapeCasts_S256_S1x256))
          transposes_S32x4096x256_S32x256x4096_0_2_1)
        shapeCasts_S32x256x4096_S32x256x16x16x16
      = Cert.SeSpec.viaChannels shapeCasts_S32x256x16x16x16_S32x256x4096 shapeCasts_S32x256x4096_S32x256x16x16x16 x w1 b1 w2 b2 := by
  unfold Cert.SeSpec.viaChannels
  refine congrArg (fun f => shapeCast S32x256x16x16x16 f shapeCasts_S32x256x4096_S32x256x16x16x16) (funext fun j => ?_)
  obtain ⟨b, ch, s, rfl⟩ : ∃ (b : Fin 32) (ch : Fin 256) (s : Fin 4096), j = ix3 b ch s := ⟨j 0, j 1, j 2, eq_ix3 j⟩
  rw [transpose_ix3_021_apply]
  unfold arrOut arrGate Cert.SeSpec.gate Cert.SeSpec.voxelSum
  refine congrArg₂ (· * ·) (transpose_ix3_021_apply _ _ b s ch) (congrArg Ideal.logistic ?_)
  refine congrArg₂ (· + ·) (Finset.sum_congr rfl fun j _ => ?_) (shapeCast_a_1a_apply b2 _ (0 : Fin 1) ch)
  refine congrArg₂ (· * ·) (congrArg (max · (Ideal.ofBits .f32 0x00000000#32)) ?_) (transpose_ix2_apply w2 _ j ch)
  refine congrArg₂ (· + ·) (Finset.sum_congr rfl fun k _ => ?_) (shapeCast_a_1a_apply b1 _ (0 : Fin 1) j)
  refine congrArg₂ (· * ·) (congrArg (· * Ideal.ofBits .f32 0x39800000#32) (Finset.sum_congr rfl fun s' _ => ?_)) (transpose_ix2_apply w1 _ k j)
  exact transpose_ix3_021_apply _ _ b s' k

end Cert.KernelIdeal.SeValue

end
-- ==== Proof.KernTail.lean ====
/-
  What the host operations after the one grid region leave in the result.

  After the region, the region's result in its [32, 4096, 256] view — batch, voxel, channel — is transposed on its last
  two axes to [32, 256, 4096] — batch, channel, voxel — and re-laid as [32, 256, 16, 16, 16]. Both are re-indexings of the
  array the region's write-backs leave; every argument array is untouched by them and by the region.
-/
import proofs.«169195_g2000704654976195_pallasbulk_1081_6_alg».proof.Proof.Gen.KernelIdeal.Frame
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.SeTail

open Cert.KernelIdeal Cert.KernelIdeal.Gen

/-- The result after the two trailing host operations: the region's final [32, 4096, 256] array with its last two axes
    exchanged, re-laid in the argument's rank-5 shape. -/
theorem tail_eq (m : (ℓ : Loc nD τ sig) → Buf (Elt Ideal) ℓ) (c : Dev nD) :
    Pipeline.afterTail₀ cfgs (Gen.dats m) 0 (Gen.V0 m) [hostOps1] c main_v8
      = shapeCast S32x256x16x16x16 (transpose S32x256x4096 [0, 2, 1] ((Gen.dats m 0 c).arrAt 5 cfg0.N) transposes_S32x4096x256_S32x256x4096_0_2_1) shapeCasts_S32x256x4096_S32x256x16x16x16 := by
  unfold Pipeline.afterTail₀
  show StableHlo.after hostOps1 _ (Proc.devRef .tc main_v8) = _
  after_results
  have e := Pipeline.withArrays_arr spec0 launch0.win.arr_inj c (V0 m c) (fun w => (Gen.dats m 0 c).arrAt w cfg0.N) 5
  refine Eq.trans ?_ (congrArg (fun A => shapeCast S32x256x16x16x16 (transpose S32x256x4096 [0, 2, 1] A transposes_S32x4096x256_S32x256x4096_0_2_1) shapeCasts_S32x256x4096_S32x256x16x16x16) e)
  rfl

/-- The whole run, read: the result at that re-indexing of the region's final array, the five arguments as launched. -/
theorem run_tail (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8)
        = shapeCast S32x256x16x16x16 (transpose S32x256x4096 [0, 2, 1] ((Gen.dats m 0 c).arrAt 5 cfg0.N) transposes_S32x4096x256_S32x256x4096_0_2_1) shapeCasts_S32x256x4096_S32x256x16x16x16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (Gen.dats m) c),
      ((h c).2 main_arg1 (Pipeline.mem_restRefs_of main_arg1 (by decide) (by decide))).trans (W_main_arg1 m (Gen.dats m) c),
      ((h c).2 main_arg2 (Pipeline.mem_restRefs_of main_arg2 (by decide) (by decide))).trans (W_main_arg2 m (Gen.dats m) c),
      ((h c).2 main_arg3 (Pipeline.mem_restRefs_of main_arg3 (by decide) (by decide))).trans (W_main_arg3 m (Gen.dats m) c),
      ((h c).2 main_arg4 (Pipeline.mem_restRefs_of main_arg4 (by decide) (by decide))).trans (W_main_arg4 m (Gen.dats m) c)⟩)
    (Gen.run_main m ρ)

end Cert.KernelIdeal.SeTail

end
-- ==== Proof.KernRun.lean ====
/-
  The fused block's run, with its result named: the specification through the [32, 256, 4096] view.

  The grid leaves the result array as one function of the staged arrays; the staged arrays are re-layouts of the
  arguments; the two operations after the grid swap the last two axes back and lay the array in the argument's shape.
-/
import proofs.«169195_g2000704654976195_pallasbulk_1081_6_alg».proof.Proof.KernHost
import proofs.«169195_g2000704654976195_pallasbulk_1081_6_alg».proof.Proof.KernChannels
import proofs.«169195_g2000704654976195_pallasbulk_1081_6_alg».proof.Proof.KernTail

noncomputable section

namespace Cert.KernelIdeal.SeValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array after the grid, axes swapped back and laid in the argument's shape, is the specification of the
    five arguments. -/
theorem v8_eq (c : Dev nD) :
    shapeCast S32x256x16x16x16
        (transpose S32x256x4096 [0, 2, 1] ((dats m 0 c).arrAt 5 cfg0.N) transposes_S32x4096x256_S32x256x4096_0_2_1)
        shapeCasts_S32x256x4096_S32x256x16x16x16
      = Cert.SeSpec.viaChannels shapeCasts_S32x256x16x16x16_S32x256x4096 shapeCasts_S32x256x4096_S32x256x16x16x16
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [final, V_v1, V_v2, V_v3, V_v4, V_v5]
  exact arrOut_staged_eq _ _ _ _ _

/-- The run: every weakly fair execution terminates with the result buffer at the specification and the five
    arguments as launched. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v8)
        = Cert.SeSpec.viaChannels shapeCasts_S32x256x16x16x16_S32x256x4096 shapeCasts_S32x256x4096_S32x256x16x16x16
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono (fun _ h c => ⟨(h c).1.trans (v8_eq m c), (h c).2⟩)
    (Cert.KernelIdeal.SeTail.run_tail m ρ)

end Cert.KernelIdeal.SeValue

end
-- ==== Proof.RefFold.lean ====
/-
  The reference's buffers at the boundaries of its segments, read where the result passes.

  The input is re-laid as [8192, 4096] before the pool region, which reads it and leaves it alone; the pool's column of
  row sums is re-laid as [32, 256] for the gate region, which also gets the two weights transposed and the two biases as
  rows; the gate's [32, 256] result is re-laid as a column [8192, 1] for the scale region, which finds the re-laid input
  still in place; the scale's result is re-laid in the argument's shape.
-/
import proofs.«169195_g2000704654976195_pallasbulk_1081_6_alg».proof.Proof.Gen.ReferenceIdeal.Frame
import Idealize.ShloMosaic.Lib.StableHlo.Run
import Idealize.ShloMosaic.PureOps.Ideal

set_option maxRecDepth 16384

noncomputable section

namespace Cert.ReferenceIdeal.SeFold

open Idealize.ShloMosaic Idealize.ShloMosaic.TcCoe Idealize.SL.Sem Idealize.ShloMosaic.StableHlo
open Cert.ReferenceIdeal Cert.ReferenceIdeal.Gen

variable (m : (ℓ : Loc nD τ sig) → Buf (Elt Ideal) ℓ) (ρ : Dev nD → PrngReg)

/-! ## Before the pool region -/

/-- The pool region finds the input re-laid as [8192, 4096]. -/
theorem entry0_v0 (c : Dev nD) :
    V1 m ρ c main_v0 = shapeCast S8192x4096 (m ((c : Thread nD τ).loc main_arg0)) shapeCasts_S32x256x16x16x16_S8192x4096 := by
  show StableHlo.after hostOps0 (W0 m ρ c) (Proc.devRef .tc main_v0) = _
  after_results
  rfl

/-- An argument the first stretch does not write is as launched when the pool region is left. -/
theorem exit0_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
theorem exit0_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
theorem exit0_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
theorem exit0_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results

/-- The pool region leaves its input array as it found it. -/
theorem exit0_v0 (c : Dev nD) : W2 m ρ c (Proc.devRef .tc main_v0) = V1 m ρ c main_v0 :=
  (W2_arr m ρ c 0).trans (((dat0 (V1 m ρ) c).arrAt_in 0 rfl cfg0.N).trans (A_eq0 (V1 m ρ) c 0))

/-- The pool region's output array is what its write-backs leave. -/
theorem exit0_v1 (c : Dev nD) : W2 m ρ c (Proc.devRef .tc main_v1) = (dat0 (V1 m ρ) c).arrAt 1 cfg0.N :=
  W2_arr m ρ c 1

/-! ## Before the gate region -/

theorem entry1_v2 (c : Dev nD) :
    V3 m ρ c main_v2 = shapeCast S32x256 (W2 m ρ c (Proc.devRef .tc main_v1)) shapeCasts_S8192x1_S32x256 := by
  show StableHlo.after hostOps1 (W2 m ρ c) (Proc.devRef .tc main_v2) = _
  after_results
  rfl
theorem entry1_v3 (c : Dev nD) :
    V3 m ρ c main_v3 = transpose S256x16 [1, 0] (m ((c : Thread nD τ).loc main_arg1)) transposes_S16x256_S256x16_1_0 := by
  rw [← exit0_arg1 m ρ c]
  show StableHlo.after hostOps1 (W2 m ρ c) (Proc.devRef .tc main_v3) = _
  after_results
theorem entry1_v4 (c : Dev nD) :
    V3 m ρ c main_v4 = shapeCast S1x16 (m ((c : Thread nD τ).loc main_arg2)) shapeCasts_S16_S1x16 := by
  rw [← exit0_arg2 m ρ c]
  show StableHlo.after hostOps1 (W2 m ρ c) (Proc.devRef .tc main_v4) = _
  after_results
  rfl
theorem entry1_v5 (c : Dev nD) :
    V3 m ρ c main_v5 = transpose S16x256 [1, 0] (m ((c : Thread nD τ).loc main_arg3)) transposes_S256x16_S16x256_1_0 := by
  rw [← exit0_arg3 m ρ c]
  show StableHlo.after hostOps1 (W2 m ρ c) (Proc.devRef .tc main_v5) = _
  after_results
theorem entry1_v6 (c : Dev nD) :
    V3 m ρ c main_v6 = shapeCast S1x256 (m ((c : Thread nD τ).loc main_arg4)) shapeCasts_S256_S1x256 := by
  rw [← exit0_arg4 m ρ c]
  show StableHlo.after hostOps1 (W2 m ρ c) (Proc.devRef .tc main_v6) = _
  after_results
  rfl
/-- The re-laid input is not written between the pool region's exit and the gate region's entry. -/
theorem entry1_v0 (c : Dev nD) : W3 m ρ c (Proc.devRef .tc main_v0) = W2 m ρ c (Proc.devRef .tc main_v0) := by
  show StableHlo.after hostOps1 (W2 m ρ c) (Proc.devRef .tc main_v0) = _
  after_results

/-! ## Before the scale region -/

/-- The gate region's output array is what its write-back leaves. -/
theorem exit1_v7 (c : Dev nD) : W4 m ρ c (Proc.devRef .tc main_v7) = (dat1 (V3 m ρ) c).arrAt 5 cfg1.N :=
  W4_arr m ρ c 5

theorem entry2_v8 (c : Dev nD) :
    V5 m ρ c main_v8 = shapeCast S8192x1 (W4 m ρ c (Proc.devRef .tc main_v7)) shapeCasts_S32x256_S8192x1 := by
  show StableHlo.after hostOps2 (W4 m ρ c) (Proc.devRef .tc main_v8) = _
  after_results
  rfl
/-- The scale region finds the re-laid input as the pool region found it. -/
theorem entry2_v0 (c : Dev nD) : V5 m ρ c main_v0 = V1 m ρ c main_v0 := by
  have h5 : W5 m ρ c (Proc.devRef .tc main_v0) = W4 m ρ c (Proc.devRef .tc main_v0) := by
    show StableHlo.after hostOps2 (W4 m ρ c) (Proc.devRef .tc main_v0) = _
    after_results
  exact h5.trans ((W4_of_ne m ρ c main_v0 (by decide)).trans ((entry1_v0 m ρ c).trans (exit0_v0 m ρ c)))

/-! ## After the scale region -/

theorem exit2_v9 (c : Dev nD) : W6 m ρ c (Proc.devRef .tc main_v9) = (dat2 (V5 m ρ) c).arrAt 2 cfg2.N :=
  W6_arr m ρ c 2

/-- The result: the scale region's output re-laid in the argument's shape. -/
theorem final_v10 (c : Dev nD) :
    W7 m ρ c (Proc.devRef .tc main_v10)
      = shapeCast S32x256x16x16x16 (W6 m ρ c (Proc.devRef .tc main_v9)) shapeCasts_S8192x4096_S32x256x16x16x16 := by
  show StableHlo.after hostOps3 (W6 m ρ c) (Proc.devRef .tc main_v10) = _
  after_results
  rfl

end Cert.ReferenceIdeal.SeFold

end
-- ==== Proof.RefRun.lean ====
/-
  The reference program's run, with its post left general.

  The reference's entry point is three pipelined regions among four stretches of host operations. The buffer contents at
  each boundary form a fold from the launch memory: a host stretch applies its operations, a region replaces its arrays
  by what its write-backs leave and keeps every other buffer. Here the run over those segments is stated once with the
  strongest post the segments give: in every final state EVERY unscoped buffer of a core holds the last boundary's
  contents. The argument arrays and the result are then read off that one fact.
-/
import proofs.«169195_g2000704654976195_pallasbulk_1081_6_alg».proof.Proof.Gen.ReferenceIdeal.Frame

set_option maxRecDepth 16384

noncomputable section

namespace Cert.ReferenceIdeal.SeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, and in every final state each unscoped
    buffer of each core holds the contents of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- Read at a TensorCore reference that is not scoped: the buffer ends at the fold's last contents there. -/
theorem run_at (bs : List (Ref sig .tc)) (hbs : ∀ b ∈ bs, ¬ (Proc.devRef .tc b : DevRef τ sig).isScoped) :
    θ_run defs (onTc (τ := τ) (main (F := F))) ⟨m, fun _ => 0, ρ⟩ (fun r => ∀ c : Dev nD,
      ∀ b ∈ bs, r.2.mem ((c.tc : Thread nD τ).loc b) = W7 m ρ c (Proc.devRef .tc b)) :=
  (θ_run defs _ _).mono (fun _ h c b hb => h c _ (mem_uc b (hbs b hb))) (run_all m ρ)

end Cert.ReferenceIdeal.SeRun

end
-- ==== Proof.GatePayload.lean ====
/-
  The gate region's body, read at an entry.

  The body takes the [32, 256] matrix of per-(batch, channel) sums, scales it by 2⁻¹², multiplies by the [256, 16] first
  weight, adds the first bias row, takes the positive part, multiplies by the [16, 256] second weight, adds the second
  bias row and applies the logistic function. At entry (p, o) that is
      logistic( Σ_j max( Σ_k z(p, k) · 2⁻¹² · A(k, j) + u(0, j), 0 ) · B(j, o) + v(0, o) ).
-/
import proofs.«169195_g2000704654976195_pallasbulk_1081_6_alg».proof.Proof.Gen.ReferenceIdeal.Skeleton
import proofs.«169195_g2000704654976195_pallasbulk_1081_6_alg».proof.Proof.LibPlainDot
import Idealize.ShloMosaic.Lib.Pipeline.Value
import Idealize.ShloMosaic.Lib.ValueLayout

set_option maxRecDepth 16384

noncomputable section

namespace Cert.ReferenceIdeal.GateValue

open Idealize.ShloMosaic Idealize.ShloMosaic.ValueIdx
open Cert.ReferenceIdeal Cert.ReferenceIdeal.Gen

/-- The gate in terms of the matrices as the body loads them: the weights already transposed, the biases as rows. -/
def gateOf (z : S32x256.Idx → EReal) (A : S256x16.Idx → EReal) (u : S1x16.Idx → EReal) (B : S16x256.Idx → EReal)
    (v : S1x256.Idx → EReal) (p : Fin 32) (o : Fin 256) : EReal :=
  Ideal.logistic ((∑ j : Fin 16,
      max ((∑ k : Fin 256, z (ix2 p k) * Ideal.ofBits .f32 0x39800000#32 * A (ix2 k j)) + u (ix2 (0 : Fin 1) j)) (Ideal.ofBits .f32 0x00000000#32)
        * B (ix2 j o)) + v (ix2 (0 : Fin 1) o))

/-- The body's stored value at entry (p, o). -/
theorem pay_apply (z : Vec Ideal S32x256 .f32) (A : Vec Ideal S256x16 .f32) (u : Vec Ideal S1x16 .f32)
    (B : Vec Ideal S16x256 .f32) (v : Vec Ideal S1x256 .f32) (p : Fin 32) (o : Fin 256) :
    k1_pay1 (F := Ideal) z A u B v (ix2 p o) = gateOf z A u B v p o := by
  unfold k1_pay1 gateOf
  refine congrArg Ideal.logistic ?_
  refine congrArg₂ (· + ·) ?_ ?_
  · refine (Cert.LibPlainDot.plain_matmul_zero_apply none _ _ p o).trans ?_
    refine Finset.sum_congr rfl fun j _ => ?_
    refine congrArg₂ (· * ·) ?_ ?_
    · refine congrArg₂ max (congrArg₂ (· + ·) ?_ ?_) rfl
      · refine (Cert.LibPlainDot.plain_matmul_zero_apply none _ _ p j).trans ?_
        refine Finset.sum_congr rfl fun k _ => ?_
        rw [shapeCast_self, shapeCast_self]
        rfl
      · rw [shapeCast_self]
        exact broadcastTo_1b_ab_apply u _ p j
    · rw [shapeCast_self]
  · rw [shapeCast_self]
    exact broadcastTo_1b_ab_apply v _ p o

end Cert.ReferenceIdeal.GateValue

end
-- ==== Proof.GateBlocks.lean ====
/-
  The gate region's output array.

  The region has one grid point and every window's block is its whole array, so the array the region leaves is the
  body's stored value of the arrays it finds, entry by entry.
-/
import proofs.«169195_g2000704654976195_pallasbulk_1081_6_alg».proof.Proof.Gen.ReferenceIdeal.Frame
import proofs.«169195_g2000704654976195_pallasbulk_1081_6_alg».proof.Proof.GatePayload
import Idealize.ShloMosaic.Lib.Pipeline.Value

set_option maxRecDepth 16384

noncomputable section

namespace Cert.ReferenceIdeal.GateValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- Every window's block index is (0, 0) at the one point. -/
theorem index_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The array the gate region leaves, as one function of the arrays it finds. -/
def gateArr (c : Dev nD) : S32x256.Idx → EReal :=
  fun i => gateOf (V c main_v2) (V c main_v3) (V c main_v4) (V c main_v5) (V c main_v6) (i 0) (i 1)

/-- Each input block at the point is the whole array: read at an entry it is the array there. -/
theorem blk0_apply (c : Dev nD) (t : Fin cfg1.N) (p : Fin 32) (k : Fin 256) : iblk1 V c 0 t (ix2 p k) = V c main_v2 (ix2 p k) := by
  obtain ⟨e0, e1, -⟩ := index_zero t
  show V c main_v2 (((cfg1.win 0).blk t).view.emb (ix2 p k)) = _
  refine congrArg (V c main_v2) (funext fun a => Fin.ext ?_)
  match a with
  | ⟨0, _⟩ => show win1_0.index t (0 : Fin 2) * 32 + 1 * p.val = p.val; omega
  | ⟨1, _⟩ => show win1_0.index t (1 : Fin 2) * 256 + 1 * k.val = k.val; omega
theorem blk1_apply (c : Dev nD) (t : Fin cfg1.N) (k : Fin 256) (j : Fin 16) : iblk1 V c 1 t (ix2 k j) = V c main_v3 (ix2 k j) := by
  obtain ⟨-, -, e0, e1, -⟩ := index_zero t
  show V c main_v3 (((cfg1.win 1).blk t).view.emb (ix2 k j)) = _
  refine congrArg (V c main_v3) (funext fun a => Fin.ext ?_)
  match a with
  | ⟨0, _⟩ => show win1_1.index t (0 : Fin 2) * 256 + 1 * k.val = k.val; omega
  | ⟨1, _⟩ => show win1_1.index t (1 : Fin 2) * 16 + 1 * j.val = j.val; omega
theorem blk2_apply (c : Dev nD) (t : Fin cfg1.N) (u : Fin 1) (j : Fin 16) : iblk1 V c 2 t (ix2 u j) = V c main_v4 (ix2 u j) := by
  obtain ⟨-, -, -, -, e0, e1, -⟩ := index_zero t
  show V c main_v4 (((cfg1.win 2).blk t).view.emb (ix2 u j)) = _
  refine congrArg (V c main_v4) (funext fun a => Fin.ext ?_)
  match a with
  | ⟨0, _⟩ => show win1_2.index t (0 : Fin 2) * 1 + 1 * u.val = u.val; omega
  | ⟨1, _⟩ => show win1_2.index t (1 : Fin 2) * 16 + 1 * j.val = j.val; omega
theorem blk3_apply (c : Dev nD) (t : Fin cfg1.N) (j : Fin 16) (o : Fin 256) : iblk1 V c 3 t (ix2 j o) = V c main_v5 (ix2 j o) := by
  obtain ⟨-, -, -, -, -, -, e0, e1, -⟩ := index_zero t
  show V c main_v5 (((cfg1.win 3).blk t).view.emb (ix2 j o)) = _
  refine congrArg (V c main_v5) (funext fun a => Fin.ext ?_)
  match a with
  | ⟨0, _⟩ => show win1_3.index t (0 : Fin 2) * 16 + 1 * j.val = j.val; omega
  | ⟨1, _⟩ => show win1_3.index t (1 : Fin 2) * 256 + 1 * o.val = o.val; omega
theorem blk4_apply (c : Dev nD) (t : Fin cfg1.N) (u : Fin 1) (o : Fin 256) : iblk1 V c 4 t (ix2 u o) = V c main_v6 (ix2 u o) := by
  obtain ⟨-, -, -, -, -, -, -, -, e0, e1, -⟩ := index_zero t
  show V c main_v6 (((cfg1.win 4).blk t).view.emb (ix2 u o)) = _
  refine congrArg (V c main_v6) (funext fun a => Fin.ext ?_)
  match a with
  | ⟨0, _⟩ => show win1_4.index t (0 : Fin 2) * 1 + 1 * u.val = u.val; omega
  | ⟨1, _⟩ => show win1_4.index t (1 : Fin 2) * 256 + 1 * o.val = o.val; omega

/-- What the point writes back is its block — the whole — of `gateArr`. -/
theorem flushed_eq (c : Dev nD) (t : Fin cfg1.N) :
    (dat1 V c).flushed 5 t = ((cfg1.win 5).blk t).view.read (Elt Ideal) (gateArr V c) := by
  show (cfg1.win 5).cut (grid1.coords t) ((dat1 V c).after 5 t) = _
  rw [after1_5]
  unfold out1_5
  rw [View.canon_unit_zero origin2]
  simp only [View.ld_unit_zero (S := S32x256) origin2, View.ld_unit_zero (S := S256x16) origin2, View.ld_unit_zero (S := S1x16) origin2,
    View.ld_unit_zero (S := S16x256) origin2, View.ld_unit_zero (S := S1x256) origin2]
  funext y
  obtain ⟨p, o, rfl⟩ : ∃ (p : Fin 32) (o : Fin 256), y = ix2 p o := ⟨y 0, y 1, eq_ix2 y⟩
  obtain ⟨-, -, -, -, -, -, -, -, -, -, e0, e1⟩ := index_zero t
  have hemb : ((cfg1.win 5).blk t).view.emb (ix2 p o) = ix2 p o := by
    funext a; apply Fin.ext
    match a with
    | ⟨0, _⟩ => show win1_5.index t (0 : Fin 2) * 32 + 1 * p.val = p.val; omega
    | ⟨1, _⟩ => show win1_5.index t (1 : Fin 2) * 256 + 1 * o.val = o.val; omega
  show k1_pay1 (F := Ideal) (iblk1 V c 0 t) (iblk1 V c 1 t) (iblk1 V c 2 t) (iblk1 V c 3 t) (iblk1 V c 4 t) (ix2 p o)
      = gateArr V c (((cfg1.win 5).blk t).view.emb (ix2 p o))
  rw [hemb]
  refine (pay_apply _ _ _ _ _ p o).trans ?_
  unfold gateArr gateOf
  refine congrArg Ideal.logistic (congrArg₂ (· + ·) (Finset.sum_congr rfl fun j _ => congrArg₂ (· * ·)
    (congrArg₂ max (congrArg₂ (· + ·) (Finset.sum_congr rfl fun k _ => ?_) ?_) rfl) ?_) ?_)
  · exact congrArg₂ (· * ·) (congrArg (· * _) (blk0_apply V c t p k)) (blk1_apply V c t k j)
  · exact blk2_apply V c t 0 j
  · exact blk3_apply V c t j o
  · exact blk4_apply V c t 0 o

/-- An entry is in the point's block iff each coordinate is in the block's range on its axis. -/
theorem mem_blk (t : Fin cfg1.N) (i : S32x256.Idx) :
    i ∈ ((cfg1.win 5).blk t).view.set ↔ ∀ a : Fin 2, win1_5.index t a * S32x256.size a ≤ (i a).val ∧ (i a).val < win1_5.index t a * S32x256.size a + S32x256.size a := by
  show i ∈ ((View.whole main_v7).slice (win1_5.rect t)).set ↔ _
  rw [View.set_slice_whole, Rect.mem_set_unit]
  exact Iff.rfl

/-- The one point's block is the whole array. -/
theorem cover (i : S32x256.Idx) : ∃ t : Fin cfg1.N, (cfg1.win 5).flush t = true ∧ i ∈ ((cfg1.win 5).blk t).view.set := by
  refine ⟨⟨0, by decide⟩, flush1_5 _, ?_⟩
  rw [mem_blk]
  obtain ⟨-, -, -, -, -, -, -, -, -, -, e0, e1⟩ := index_zero ⟨0, by decide⟩
  intro a
  match a with
  | ⟨0, _⟩ =>
    show win1_5.index _ (0 : Fin 2) * 32 ≤ (i 0).val ∧ (i 0).val < win1_5.index _ (0 : Fin 2) * 32 + 32
    have h : (i 0).val < 32 := (i 0).isLt
    omega
  | ⟨1, _⟩ =>
    show win1_5.index _ (1 : Fin 2) * 256 ≤ (i 1).val ∧ (i 1).val < win1_5.index _ (1 : Fin 2) * 256 + 256
    have h : (i 1).val < 256 := (i 1).isLt
    omega

/-- The gate region leaves, in its output array, the gate of the arrays it finds. -/
theorem gate_final (c : Dev nD) : (dat1 V c).arrAt 5 cfg1.N = gateArr V c :=
  (dat1 V c).arrAt_eq_of_cover 5 (gateArr V c) (fun t _ => flushed_eq V c t) cover

end Cert.ReferenceIdeal.GateValue

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.ScalePayload.lean ====
/-
  The scaling body, entry by entry.

  The body takes a [256, 2048] block of the matrix and a [256, 1] block of the gate column, spreads the column along the
  rows and multiplies: entry (p, q) of the result is entry (p, q) of the matrix block times entry (p, 0) of the column
  block. The two re-layings in front are of a shape onto itself, hence the identity.
-/
import proofs.«169195_g2000704654976195_pallasbulk_1081_6_alg».proof.Proof.Gen.ReferenceIdeal.Skeleton
import proofs.«169195_g2000704654976195_pallasbulk_1081_6_alg».proof.Proof.LibColumn
import Idealize.ShloMosaic.Lib.ValueIdx
import Idealize.ShloMosaic.Lib.Pipeline.Value

namespace Cert.ReferenceIdeal.ScaleValue

open Idealize.ShloMosaic Idealize.ShloMosaic.ValueIdx

/-- Entry (p, q) of the body's product: the matrix block's entry (p, q) times the column block's entry (p, 0). -/
theorem scale_payload (x0 : Vec Ideal S256x2048 .f32) (x1 : Vec Ideal S256x1 .f32) (p : Fin 256) (q : Fin 2048) :
    Gen.k2_pay1 x0 x1 (ix2 p q) = x0 (ix2 p q) * x1 (ix2 p (0 : Fin 1)) := by
  unfold Gen.k2_pay1
  rw [shapeCast_self, shapeCast_self, mulf_apply, Cert.LibColumn.broadcastTo_a1_ab_apply]

end Cert.ReferenceIdeal.ScaleValue
-- ==== Proof.ScaleBlocks.lean ====
/-
  From the scaling region's blocks to its whole result.

  The grid has 32 · 2 points; point t is the pair (t / 2, t % 2). At point (i, j) the region reads rows 256 i … 256 i + 255,
  columns 2048 j … 2048 j + 2047 of the matrix, and rows 256 i … 256 i + 255 of the gate column, and writes the same
  rectangle of the result: entry (p, q) of the matrix block times entry (p, 0) of the column block. A block's entry
  (p, q) is the array's entry (256 i + p, 2048 j + q), so every written block is the restriction of ONE function of the
  two arrays: entry (r, s) of the matrix times entry (r, 0) of the column. The rectangles tile the [8192, 4096] array
  (entry (r, s) lies in the rectangle of the point (r / 256, s / 2048)), so the result is that function everywhere.
-/
import proofs.«169195_g2000704654976195_pallasbulk_1081_6_alg».proof.Proof.Gen.ReferenceIdeal.Frame
import proofs.«169195_g2000704654976195_pallasbulk_1081_6_alg».proof.Proof.ScalePayload
import Idealize.ShloMosaic.Lib.Pipeline.Value
import Idealize.ShloMosaic.Lib.Tactic

set_option maxRecDepth 16384

noncomputable section

namespace Cert.ReferenceIdeal.ScaleValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (V : (c : Dev nD) → (b : Ref sig .tc) → Buf (Elt Ideal) ((c : Thread nD τ).loc b))

/-- The matrix with every row multiplied by that row's entry of the column. -/
abbrev scaled (a : S8192x4096.Idx → Elt Ideal .f32) (g : S8192x1.Idx → Elt Ideal .f32) : S8192x4096.Idx → Elt Ideal .f32 :=
  fun i => a i * g (ix2 (i 0) (0 : Fin 1))

theorem zero_offsets : (![0, 0] : Fin 2 → Nat) = fun _ => 0 := funext fun a => by fin_cases a <;> rfl

/-- The block indices at point t: the matrix block and the result block are block (t / 2, t % 2); the column block is
    block (t / 2, 0). -/
theorem block_indices : ∀ t : Fin cfg2.N,
    win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = 0
    ∧ win2_2.index t (0 : Fin 2) = t.val / 2
    ∧ win2_2.index t (1 : Fin 2) = t.val % 2 :=
  (by decide +kernel : ∀ t : Fin grid2.N, _)

/-- What point t writes back is its rectangle of the scaled matrix. -/
theorem flushed_eq (c : Dev nD) (t : Fin cfg2.N) :
    (dat2 V c).flushed 2 t = ((cfg2.win 2).blk t).view.read (Elt Ideal) (scaled (V c main_v0) (V c main_v8)) := by
  show (cfg2.win 2).cut (grid2.coords t) ((dat2 V c).after 2 t) = _
  rw [after2_2]
  unfold out2_2
  rw [View.canon_unit_zero zero_offsets]
  simp only [View.ld_unit_zero (S := S256x2048) zero_offsets, View.ld_unit_zero (S := S256x1) zero_offsets]
  obtain ⟨e0, e1, e2, e3, e4, e5⟩ := block_indices t
  funext j
  show k2_pay1 (iblk2 V c 0 t) (iblk2 V c 1 t) j
    = scaled (V c main_v0) (V c main_v8) (((cfg2.win 2).blk t).view.emb j)
  refine (congrArg (k2_pay1 (iblk2 V c 0 t) (iblk2 V c 1 t)) (eq_ix2 j)).trans ?_
  refine (scale_payload (iblk2 V c 0 t) (iblk2 V c 1 t) (j 0) (j 1)).trans ?_
  have h0 : iblk2 V c 0 t (ix2 (j 0) (j 1)) = (V c main_v0 : S8192x4096.Idx → Elt Ideal .f32) (((cfg2.win 2).blk t).view.emb j) := by
    show V c main_v0 (((cfg2.win 0).blk t).view.emb (ix2 (j 0) (j 1))) = _
    refine congrArg (V c main_v0) ?_
    funext a; apply Fin.ext
    match a with
    | ⟨0, _⟩ => show win2_0.index t (0 : Fin 2) * 256 + 1 * (j 0).val = win2_2.index t (0 : Fin 2) * 256 + 1 * (j 0).val; omega
    | ⟨1, _⟩ => show win2_0.index t (1 : Fin 2) * 2048 + 1 * (j 1).val = win2_2.index t (1 : Fin 2) * 2048 + 1 * (j 1).val; omega
  have h1 : iblk2 V c 1 t (ix2 (j 0) (0 : Fin 1))
      = (V c main_v8 : S8192x1.Idx → Elt Ideal .f32) (ix2 ((((cfg2.win 2).blk t).view.emb j : S8192x4096.Idx) 0) (0 : Fin 1)) := by
    show V c main_v8 (((cfg2.win 1).blk t).view.emb (ix2 (j 0) (0 : Fin 1))) = _
    refine congrArg (V c main_v8) ?_
    funext a; apply Fin.ext
    match a with
    | ⟨0, _⟩ => show win2_1.index t (0 : Fin 2) * 256 + 1 * (j 0).val = win2_2.index t (0 : Fin 2) * 256 + 1 * (j 0).val; omega
    | ⟨1, _⟩ => show win2_1.index t (1 : Fin 2) * 1 + 1 * 0 = 0; omega
  exact congrArg₂ (· * ·) h0 h1

/-- An entry of the array lies in point t's rectangle iff each coordinate lies in the rectangle's range on its axis. -/
theorem mem_blk (t : Fin cfg2.N) (i : S8192x4096.Idx) :
    i ∈ ((cfg2.win 2).blk t).view.set ↔ ∀ a : Fin 2, win2_2.index t a * S256x2048.size a ≤ (i a).val ∧ (i a).val < win2_2.index t a * S256x2048.size a + S256x2048.size a := by
  show i ∈ ((View.whole main_v9).slice (win2_2.rect t)).set ↔ _
  rw [View.set_slice_whole, Rect.mem_set_unit]
  exact Iff.rfl

/-- Every entry (r, s) of the array lies in the rectangle of the point (r / 256, s / 2048), which writes back. -/
theorem covered (i : S8192x4096.Idx) :
    ∃ t : Fin cfg2.N, (cfg2.win 2).flush t = true ∧ i ∈ ((cfg2.win 2).blk t).view.set := by
  have hi0 : (i 0).val < 8192 := (i 0).isLt
  have hi1 : (i 1).val < 4096 := (i 1).isLt
  obtain ⟨t, ht⟩ : ∃ t : Fin cfg2.N, t.val = 2 * ((i 0).val / 256) + (i 1).val / 2048 :=
    ⟨⟨2 * ((i 0).val / 256) + (i 1).val / 2048, by rw [show cfg2.N = 64 from N_2]; omega⟩, rfl⟩
  obtain ⟨-, -, -, -, e4, e5⟩ := block_indices t
  refine ⟨t, flush2_2 t, ?_⟩
  rw [mem_blk]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 2048 ≤ (i 1).val ∧ (i 1).val < win2_2.index t (1 : Fin 2) * 2048 + 2048; omega

/-- The result array after the region: every entry of the matrix times its row's entry of the gate column. -/
theorem scale_final (c : Dev nD) :
    (dat2 V c).arrAt 2 cfg2.N = scaled (V c main_v0) (V c main_v8) :=
  (dat2 V c).arrAt_eq_of_cover 2 (scaled (V c main_v0) (V c main_v8)) (fun t _ => flushed_eq V c t) covered

/-- The same, entry by entry, with the two arrays the region finds named: entry (r, s) of the result is entry (r, s) of
    the matrix times entry (r, 0) of the column. -/
theorem scale_final_apply (c : Dev nD) (a : S8192x4096.Idx → Elt Ideal .f32) (g : S8192x1.Idx → Elt Ideal .f32)
    (ha : V c main_v0 = a) (hg : V c main_v8 = g) (r : Fin 8192) (s : Fin 4096) :
    (dat2 V c).arrAt 2 cfg2.N (ix2 r s) = a (ix2 r s) * g (ix2 r (0 : Fin 1)) := by
  subst ha hg
  exact congrFun (scale_final V c) (ix2 r s)

end Cert.ReferenceIdeal.ScaleValue

end
-- ==== Proof.PoolPieces.lean ====
/-
  The row-sum accumulator over the [8192, 4096] view: what one grid point leaves in its [256, 1] output block.

  The body of a grid point first, at the leading half of a row block only, stores a block of zeros; then it reads the
  output block back, reads the [256, 2048] input block, and stores "the block read back plus the input block's row sums".
  Each store covers the whole output block, so what the point leaves is the last store's value, with the read-back
  resolved: at a leading half the read-back sees the zeros just stored; at a trailing half it sees what the output block
  held when the point began. Both are stated for any float values.
-/
import proofs.«169195_g2000704654976195_pallasbulk_1081_6_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.PoolValue

open Cert.ReferenceIdeal Cert.ReferenceIdeal.Gen

variable {F : FTy → Type} [FloatOps F]

/-- The offsets of a store or load of a whole block: zero on both axes. -/
theorem hz : (![0, 0] : Fin 2 → Nat) = fun _ => 0 := funext fun a => by fin_cases a <;> rfl

/-- At the trailing half of a row block (the zeroing branch not taken) the point leaves, over an output block holding
    `xo` and an input block `x`, the one covering store's value: `xo` plus the row sums of `x`. -/
theorem piece_B (c : Dev nD) (i : grid0.Coords) (a2 : Memref sig .tc .vmem S256x2048 .f32) (h2 : a2.IsWhole)
    (a3 : Memref sig .tc .vmem S256x1 .f32) (h3 : a3.IsWhole) (hc : ¬cond0_0 i) (x : Vec F S256x2048 .f32) (xo : Vec F S256x1 .f32) :
    out0_B_1 c i a2 h2 a3 h3 hc x xo = k0_pay2 xo x := by
  unfold out0_B_1
  rw [View.read_writes_eq_canon _ _ _ (cover0_B_1 c i a2 h2 a3 h3 hc x xo)]
  unfold kernelRun0_B
  dsimp only
  rw [View.canon_unit_zero hz]
  simp only [View.readAt_eq_ld, h2.read_unread, h3.read_unread, View.ld_unit_zero (S := S256x1) hz, View.ld_unit_zero (S := S256x2048) hz]

/-- At the leading half of a row block (the zeroing branch taken) the point leaves, over an input block `x`, the second
    covering store's value, whose read-back of the output block sees the zeros the first store wrote: the zero block plus
    the row sums of `x`. -/
theorem piece_A (c : Dev nD) (i : grid0.Coords) (a2 : Memref sig .tc .vmem S256x2048 .f32) (h2 : a2.IsWhole)
    (a3 : Memref sig .tc .vmem S256x1 .f32) (h3 : a3.IsWhole) (hc : cond0_0 i) (x : Vec F S256x2048 .f32) :
    out0_A_1 c i a2 h2 a3 h3 hc x = k0_pay2 (k0_pay1 (F := F)) x := by
  unfold out0_A_1
  rw [View.read_writes_eq_canon _ _ _ (cover0_A_1 c i a2 h2 a3 h3 hc x)]
  unfold kernelRun0_A
  dsimp only
  sl_unfold_words
  rw [View.canon_cons_unit_zero (S := S256x1) hz, View.readCov_unit_zero (S := S256x1) _ hz]
  simp only [View.readAt_eq_ld, h2.read_unread, View.ld_unit_zero (S := S256x2048) hz]

end Cert.ReferenceIdeal.PoolValue

end
-- ==== Proof.LibLaneSum.lean ====
/-
  A sum along the rows of a matrix, read at a row.

  Reducing an [a, b] matrix along its second axis with the additive accumulator at zero gives, at the ideal values, the
  vector whose entry p is the sum over the b columns of the matrix's row p: the source index over result entry p with
  coordinate k on the dropped axis is (p, k).
-/
import Idealize.ShloMosaic.PureOps.Ideal.Laws
import Idealize.ShloMosaic.Lib.ValueIdx

noncomputable section

namespace Cert.LibLaneSum

open Idealize.ShloMosaic Idealize.ShloMosaic.ValueIdx

/-- The source index over result entry `p` with `k` on the dropped second axis is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- An additive reduction of an `[a, b]` matrix along its second axis from the zero word, read at row `p`. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.PoolPayload.lean ====
/-
  The two stored values of the row-sum accumulator, read at a row, at the ideal values.

  The zero block is zero at every row. "The block read back plus the input block's row sums" is, at row p of the
  [256, 1] output block, the read-back entry plus the sum over the 2048 columns of row p of the [256, 2048] input block:
  the reduction along the second axis from the additive zero is that finite sum, and re-laying the [256] vector of sums
  as a [256, 1] column keeps the row.
-/
import proofs.«169195_g2000704654976195_pallasbulk_1081_6_alg».proof.Proof.Gen.ReferenceIdeal.Skeleton
import proofs.«169195_g2000704654976195_pallasbulk_1081_6_alg».proof.Proof.LibLaneSum
import proofs.«169195_g2000704654976195_pallasbulk_1081_6_alg».proof.Proof.LibColumn
import Idealize.ShloMosaic.Lib.Pipeline.Value
import Idealize.ShloMosaic.Lib.ValueIdx

noncomputable section

open Idealize.ShloMosaic Idealize.ShloMosaic.ValueIdx

namespace Cert.ReferenceIdeal.PoolValue

open Cert.ReferenceIdeal Cert.ReferenceIdeal.Gen

/-- The zero block at row `p`: the zero word's value. -/
theorem zeros_apply (p : Fin 256) (u : Fin 1) :
    (k0_pay1 (F := Ideal) : S256x1.Idx → EReal) (ix2 p u) = Ideal.ofBits .f32 0x00000000#32 := by
  unfold k0_pay1
  rfl

/-- The accumulating store's value at row `p`: the output block's entry there plus the sum of row `p` of the input
    block over its 2048 columns. -/
theorem rowsum_apply (xo : Vec Ideal S256x1 .f32) (x : Vec Ideal S256x2048 .f32) (p : Fin 256) (u : Fin 1) :
    (k0_pay2 (F := Ideal) xo x : S256x1.Idx → EReal) (ix2 p u) = xo (ix2 p u) + ∑ k : Fin 2048, x (ix2 p k) := by
  unfold k0_pay2
  dsimp only
  rw [addf_apply, shapeCast_self, shapeCast_self]
  refine congrArg (xo (ix2 p u) + ·) ?_
  refine (Cert.LibColumn.shapeCast_a_a1_apply _ shapeCasts_S256_S256x1 p u).trans ?_
  exact Cert.LibLaneSum.lane_sum_apply x reduces_S256x2048_S256 (.inl rfl) rfl p

end Cert.ReferenceIdeal.PoolValue

end
-- ==== Proof.PoolInvariant.lean ====
/-
  The row-sum accumulator over the [8192, 4096] view: what the [256, 1] output block holds after each grid point.

  Grid point t is (row block, half) = (t / 2, t % 2). Its input block is rows 256·(t / 2) … 256·(t / 2) + 255 and columns
  2048·(t % 2) … 2048·(t % 2) + 2047 of the input. After a leading half (t even) row p of the output block holds
      0 + Σ_{k < 2048} x(256·(t / 2) + p, k);
  the trailing half (t odd) starts from what the point before left — the same row block, t / 2 = (t − 1) / 2 — and adds
  the second 2048 columns:
      (0 + Σ_{k < 2048} x(256·(t / 2) + p, k)) + Σ_{k < 2048} x(256·(t / 2) + p, 2048 + k),
  which is the two-halves row sum of row 256·(t / 2) + p.
-/
import proofs.«169195_g2000704654976195_pallasbulk_1081_6_alg».proof.Proof.PoolPieces
import proofs.«169195_g2000704654976195_pallasbulk_1081_6_alg».proof.Proof.PoolPayload
import proofs.«169195_g2000704654976195_pallasbulk_1081_6_alg».proof.Proof.SeSpec

noncomputable section

open Idealize.ShloMosaic Idealize.ShloMosaic.TcCoe Idealize.SL.Sem Idealize.ShloMosaic.ValueIdx
open Idealize.ShloMosaic.Pipeline (Dat)

namespace Cert.ReferenceIdeal.PoolValue

open Cert.ReferenceIdeal Cert.ReferenceIdeal.Gen

variable (V : (c : Dev nD) → (b : Ref sig .tc) → Buf (Elt Ideal) ((c : Thread nD τ).loc b))

/-- The input in its [8192, 4096] view, as the accumulator's region finds it. -/
abbrev rows (c : Dev nD) : Cert.SeSpec.T2.Idx → EReal := V c main_v0

/-- The input block of point `t` is block (t / 2, t % 2). -/
theorem idx_in : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)

/-- Entry (p, k) of point `t`'s input block is entry (256·(t / 2) + p, 2048·(t % 2) + k) of the input: a block's
    coordinate in the array is the block index times the block's extent plus the coordinate inside the block. -/
theorem block_read (c : Dev nD) (t : Fin cfg0.N) (p : Fin 256) (k : Fin 2048) (r : Fin 8192) (q : Fin 4096)
    (hr : r.val = (t.val / 2) * 256 + p.val) (hq : q.val = (t.val % 2) * 2048 + k.val) :
    (iblk0 V c 0 t : Vec Ideal S256x2048 .f32) (ix2 p k) = rows V c (ix2 r q) := by
  unfold iblk0
  rw [View.read_apply]
  show V c main_v0 _ = V c main_v0 _
  congr 1
  funext a
  apply Fin.ext
  match a with
  | ⟨0, _⟩ => show win0_0.index t 0 * 256 + 1 * p.val = r.val; rw [(idx_in t).1, hr]; omega
  | ⟨1, _⟩ => show win0_0.index t 1 * 2048 + 1 * k.val = q.val; rw [(idx_in t).2, hq]; omega

/-- After a leading half: zero plus the sum of the row's first 2048 entries. -/
theorem after_lead (c : Dev nD) (t : Fin cfg0.N) (h0 : t.val % 2 = 0) (p : Fin 256) (u : Fin 1) (r : Fin 8192)
    (hr : r.val = (t.val / 2) * 256 + p.val) :
    (outsAt0 V c t.val t.isLt : S256x1.Idx → EReal) (ix2 p u)
      = Ideal.ofBits .f32 0x00000000#32 + ∑ k : Fin 2048, rows V c (ix2 r ⟨k.val, by omega⟩) := by
  have e1 := outsAt0_A V c t h0
  have e2 := piece_A (F := Ideal) c (grid0.coords t) (ms0_0 t) (hs0_0 t) (ms0_1 t) (hs0_1 t) ((hcond0_0 t).mpr h0) (iblk0 V c 0 t)
  refine (congrFun (e1.trans e2) (ix2 p u)).trans ?_
  refine (rowsum_apply _ _ p u).trans ?_
  rw [zeros_apply]
  refine congrArg (Ideal.ofBits .f32 0x00000000#32 + ·) (Finset.sum_congr rfl fun k _ => ?_)
  exact block_read V c t p k r ⟨k.val, by omega⟩ hr (by dsimp only; omega)

/-- After a trailing half: what the leading half of the same row block left, plus the sum of the row's last 2048 entries
    — the two-halves row sum. -/
theorem after_trail (c : Dev nD) (t : Fin cfg0.N) (h1 : ¬t.val % 2 = 0) (p : Fin 256) (u : Fin 1) (r : Fin 8192)
    (hr : r.val = (t.val / 2) * 256 + p.val) :
    (outsAt0 V c t.val t.isLt : S256x1.Idx → EReal) (ix2 p u) = Cert.SeSpec.halvesSum (rows V c) r := by
  have hN : t.val < 64 := lt_of_lt_of_eq t.isLt (show cfg0.N = 64 from N_0)
  have hlt : t.val - 1 < cfg0.N := Nat.lt_of_le_of_lt (Nat.sub_le _ _) t.isLt
  have e1 := outsAt0_B V c t h1
  have e2 := piece_B (F := Ideal) c (grid0.coords t) (ms0_0 t) (hs0_0 t) (ms0_1 t) (hs0_1 t) (fun h => h1 ((hcond0_0 t).mp h))
    (iblk0 V c 0 t) (outsAt0 V c (t.val - 1) hlt)
  refine (congrFun (e1.trans e2) (ix2 p u)).trans ?_
  refine (rowsum_apply _ _ p u).trans ?_
  unfold Cert.SeSpec.halvesSum
  have e4 := after_lead V c ⟨t.val - 1, hlt⟩ (by dsimp only; omega) p u r (by dsimp only; rw [hr]; omega)
  refine congrArg₂ (· + ·) e4 (Finset.sum_congr rfl fun k _ => ?_)
  exact block_read V c t p k r ⟨2048 + k.val, by omega⟩ hr (by dsimp only; omega)

/-- The same at any index of the output block, the row named by its first coordinate. -/
theorem after_trail_at (c : Dev nD) (t : Fin cfg0.N) (h1 : ¬t.val % 2 = 0) (y : S256x1.Idx) (r : Fin 8192)
    (hr : r.val = (t.val / 2) * 256 + (y 0).val) :
    (outsAt0 V c t.val t.isLt : S256x1.Idx → EReal) y = Cert.SeSpec.halvesSum (rows V c) r := by
  obtain ⟨p, u, rfl⟩ : ∃ (p : Fin 256) (u : Fin 1), y = ix2 p u := ⟨y 0, y 1, eq_ix2 y⟩
  exact after_trail V c t h1 p u r hr

end Cert.ReferenceIdeal.PoolValue

end
-- ==== Proof.PoolFinal.lean ====
/-
  The row-sum accumulator over the [8192, 4096] view: its [8192, 1] result array.

  The output block of grid point t is block t / 2 of the result: rows 256·(t / 2) … 256·(t / 2) + 255. It is written to
  the array only after a trailing half (t odd), when it holds the two-halves row sums of those rows. Row r of the result
  lies in block r / 256, written after point 2·(r / 256) + 1, so every row is written, and every write is the block of one
  and the same column: row r holds the two-halves row sum of row r of the input.
-/
import proofs.«169195_g2000704654976195_pallasbulk_1081_6_alg».proof.Proof.PoolInvariant
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.ReferenceIdeal.PoolValue

open Cert.ReferenceIdeal Cert.ReferenceIdeal.Gen

variable (V : (c : Dev nD) → (b : Ref sig .tc) → Buf (Elt Ideal) ((c : Thread nD τ).loc b))

/-- The output block of point `t` is block (t / 2, 0). -/
theorem idx_out : ∀ t : Fin cfg0.N, win0_1.index t 0 = t.val / 2 ∧ win0_1.index t 1 = 0 :=
  (by decide +kernel : ∀ t : Fin grid0.N, win0_1.index t 0 = t.val / 2 ∧ win0_1.index t 1 = 0)

/-- The result column: at row r, the two-halves row sum of row r of the input. -/
abbrev pooled (c : Dev nD) : Buf (Elt Ideal) ((c : Thread nD τ).loc main_v1) :=
  fun i => Cert.SeSpec.halvesSum (rows V c) (i 0)

/-- What a trailing half writes to the array is its block of the result column: entry p of the block is row
    256·(t / 2) + p. -/
theorem flushed_eq (c : Dev nD) (t : Fin cfg0.N) (hf : (cfg0.win 1).flush t = true) :
    (dat0 V c).flushed 1 t = ((cfg0.win 1).blk t).view.read (Elt Ideal) (pooled V c) := by
  have h1 : t.val % 2 = 1 := (flush0_1 t).mp hf
  show (cfg0.win 1).cut (grid0.coords t) ((dat0 V c).after 1 t) = _
  rw [after0_1]
  funext y
  rw [View.read_apply]
  show (outsAt0 V c t.val t.isLt : S256x1.Idx → EReal) y = Cert.SeSpec.halvesSum (rows V c) ((((cfg0.win 1).blk t).view.emb y) 0)
  refine after_trail_at V c t (by omega) y _ ?_
  show win0_1.index t 0 * 256 + 1 * (y 0).val = _
  rw [(idx_out t).1]; omega

/-- A row of the array is in point `t`'s block iff each coordinate is in the block's range on its axis. -/
theorem mem_blk (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v1).slice (win0_1.rect t)).set ↔ _
  rw [View.set_slice_whole, Rect.mem_set_unit]
  exact Iff.rfl

/-- Every row r is in the block written after the trailing half of row block r / 256. -/
theorem cover (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 64 := N_0
  obtain ⟨t, ht⟩ : ∃ t : Fin cfg0.N, t.val = 2 * ((i 0).val / 256) + 1 := ⟨⟨2 * ((i 0).val / 256) + 1, by rw [hN]; omega⟩, rfl⟩
  obtain ⟨e0, e1⟩ := idx_out t
  refine ⟨t, (flush0_1 t).mpr (by omega), ?_⟩
  rw [mem_blk]
  intro a
  match a with
  | ⟨0, _⟩ => show win0_1.index t 0 * 256 ≤ (i 0).val ∧ (i 0).val < win0_1.index t 0 * 256 + 256; rw [e0]; omega
  | ⟨1, _⟩ => show win0_1.index t 1 * 1 ≤ (i 1).val ∧ (i 1).val < win0_1.index t 1 * 1 + 1; rw [e1]; omega

/-- The result array after the run of the grid: the column of two-halves row sums of the input as the region finds it. -/
theorem pool_final (c : Dev nD) :
    (dat0 V c).arrAt 1 cfg0.N = fun i => Cert.SeSpec.halvesSum (V c main_v0) (i 0) :=
  (dat0 V c).arrAt_eq_of_cover 1 (pooled V c) (flushed_eq V c) (cover)

end Cert.ReferenceIdeal.PoolValue

end
-- ==== Proof.RefValue.lean ====
/-
  The reference's result as one function of its arguments.

  Through the fold of buffer contents: the result is the scale region's array re-laid in the argument's shape; that array
  is the input, viewed [8192, 4096], with every row r multiplied by entry r of the gate column; the column is the gate
  region's [32, 256] array re-laid, so entry r is the gate of (r / 256, r % 256); the gate region computed it from the
  pool region's column of two-halves row sums re-laid as [32, 256] — entry (b, k) is row b · 256 + k —, the two weights
  transposed and the two biases as rows.
-/
import proofs.«169195_g2000704654976195_pallasbulk_1081_6_alg».proof.Proof.RefFold
import proofs.«169195_g2000704654976195_pallasbulk_1081_6_alg».proof.Proof.RefRun
import proofs.«169195_g2000704654976195_pallasbulk_1081_6_alg».proof.Proof.GateBlocks
import proofs.«169195_g2000704654976195_pallasbulk_1081_6_alg».proof.Proof.ScaleBlocks
import proofs.«169195_g2000704654976195_pallasbulk_1081_6_alg».proof.Proof.PoolFinal
import proofs.«169195_g2000704654976195_pallasbulk_1081_6_alg».proof.Proof.SeSpec
import Idealize.ShloMosaic.Lib.Pipeline.Value
import Idealize.ShloMosaic.Lib.ValueLayout

set_option maxRecDepth 16384

noncomputable section

namespace Cert.ReferenceIdeal.SeValue

open Idealize.ShloMosaic Idealize.ShloMosaic.TcCoe Idealize.ShloMosaic.ValueIdx Idealize.SL.Sem
open Cert.ReferenceIdeal Cert.ReferenceIdeal.Gen Cert.ReferenceIdeal.SeFold

variable (m : (ℓ : Loc nD τ sig) → Buf (Elt Ideal) ℓ) (ρ : Dev nD → PrngReg)

/-- The input as the regions find it: re-laid as [8192, 4096]. -/
abbrev rowsOf (c : Dev nD) : S8192x4096.Idx → EReal :=
  shapeCast S8192x4096 (m ((c : Thread nD τ).loc main_arg0)) shapeCasts_S32x256x16x16x16_S8192x4096

/-- The per-(batch, channel) sums the gate region is given: row b · 256 + k of the two-halves row sums. -/
abbrev sumsOf (c : Dev nD) : Fin 32 → Fin 256 → EReal :=
  fun b k => Cert.SeSpec.halvesSum (rowsOf m c) ⟨b.val * 256 + k.val, by have := b.isLt; have := k.isLt; omega⟩

/-- The gate region finds, at (b, k) of its first operand, the two-halves sum of row b · 256 + k. -/
theorem sums_entry (c : Dev nD) (b : Fin 32) (k : Fin 256) :
    (V3 m ρ c main_v2 : S32x256.Idx → EReal) (ix2 b k) = sumsOf m c b k := by
  rw [entry1_v2, exit0_v1, Cert.ReferenceIdeal.PoolValue.pool_final (V1 m ρ) c, entry0_v0]
  refine (shapeCast_apply _ _ (ix2 b k) (ix2 (⟨b.val * 256 + k.val, by have := b.isLt; have := k.isLt; omega⟩ : Fin 8192) (0 : Fin 1)) ?_).trans rfl
  rw [Shape.rowMajor_val_two, Shape.rowMajor_val_two]
  show (b.val * 256 + k.val) * 1 + 0 = b.val * 256 + k.val
  omega

/-- The gate column the scale region finds: entry r is the gate of batch r / 256, channel r % 256. -/
theorem gate_column (c : Dev nD) (r : Fin 8192) (u : Fin 1) :
    (V5 m ρ c main_v8 : S8192x1.Idx → EReal) (ix2 r u)
      = Cert.SeSpec.gate (sumsOf m c) (m ((c : Thread nD τ).loc main_arg1)) (m ((c : Thread nD τ).loc main_arg2))
          (m ((c : Thread nD τ).loc main_arg3)) (m ((c : Thread nD τ).loc main_arg4))
          ⟨r.val / 256, by have := r.isLt; omega⟩ ⟨r.val % 256, Nat.mod_lt _ (by norm_num)⟩ := by
  rw [entry2_v8, exit1_v7, Cert.ReferenceIdeal.GateValue.gate_final (V3 m ρ) c]
  refine (shapeCast_apply _ _ (ix2 r u)
    (ix2 (⟨r.val / 256, by have := r.isLt; omega⟩ : Fin 32) (⟨r.val % 256, Nat.mod_lt _ (by norm_num)⟩ : Fin 256)) ?_).trans ?_
  · rw [Shape.rowMajor_val_two, Shape.rowMajor_val_two]
    show r.val / 256 * 256 + r.val % 256 = r.val * 1 + u.val
    have := u.isLt
    omega
  · unfold Cert.ReferenceIdeal.GateValue.gateArr Cert.ReferenceIdeal.GateValue.gateOf Cert.SeSpec.gate
    refine congrArg Ideal.logistic (congrArg₂ (· + ·) (Finset.sum_congr rfl fun j _ => congrArg₂ (· * ·)
      (congrArg₂ max (congrArg₂ (· + ·) (Finset.sum_congr rfl fun k _ => ?_) ?_) rfl) ?_) ?_)
    · refine congrArg₂ (· * ·) (congrArg (· * _) (sums_entry m ρ c _ k)) ?_
      rw [entry1_v3]
      exact transpose_ix2_apply _ _ k j
    · rw [entry1_v4]
      exact shapeCast_a_1a_apply _ _ 0 j
    · rw [entry1_v5]
      exact transpose_ix2_apply _ _ j _
    · rw [entry1_v6]
      exact shapeCast_a_1a_apply _ _ 0 _

/-- THE RESULT: the last boundary's contents at the result buffer are the block's result through the [8192, 4096] view
    of the launch contents of the five arguments. -/
theorem result_eq (c : Dev nD) :
    W7 m ρ c (Proc.devRef .tc main_v10)
      = Cert.SeSpec.viaRows shapeCasts_S32x256x16x16x16_S8192x4096 shapeCasts_S8192x4096_S32x256x16x16x16
          (m ((c : Thread nD τ).loc main_arg0)) (m ((c : Thread nD τ).loc main_arg1)) (m ((c : Thread nD τ).loc main_arg2))
          (m ((c : Thread nD τ).loc main_arg3)) (m ((c : Thread nD τ).loc main_arg4)) := by
  rw [final_v10, exit2_v9]
  unfold Cert.SeSpec.viaRows
  refine congrArg (fun f => shapeCast S32x256x16x16x16 f shapeCasts_S8192x4096_S32x256x16x16x16) ?_
  funext i
  obtain ⟨r, s, rfl⟩ : ∃ (r : Fin 8192) (s : Fin 4096), i = ix2 r s := ⟨i 0, i 1, eq_ix2 i⟩
  refine (Cert.ReferenceIdeal.ScaleValue.scale_final_apply (V5 m ρ) c (rowsOf m c) (V5 m ρ c main_v8)
    ((entry2_v0 m ρ c).trans (entry0_v0 m ρ c)) rfl r s).trans ?_
  exact congrArg (rowsOf m c (ix2 r s) * ·) (gate_column m ρ c r 0)

/-- THE RUN, READ: every weakly fair execution of the reference terminates with the result buffer at the block's result
    through the [8192, 4096] view, and the five arguments as launched. -/
theorem run : θ_run (defs (F := Ideal)) (onTc (τ := τ) (main (F := Ideal))) ⟨m, fun _ => 0, ρ⟩ (fun r => ∀ c : Dev nD,
      r.2.mem ((c.tc : Thread nD τ).loc main_v10)
        = Cert.SeSpec.viaRows shapeCasts_S32x256x16x16x16_S8192x4096 shapeCasts_S8192x4096_S32x256x16x16x16
            (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v10 (by decide))).trans (result_eq m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩)
    (Cert.ReferenceIdeal.SeRun.run_all m ρ)

end Cert.ReferenceIdeal.SeValue

end
-- ==== Proof.SeAlgebra.lean ====
/-
  The two views of the squeeze-and-excitation block give the same result.

  The argument has 32 · 256 · 4096 entries in row-major order. The [32, 256, 4096] view names an entry (b, k, s); the
  [8192, 4096] view names the same entry (b · 256 + k, s), since ((b · 256 + k) · 4096 + s) is its position in both. Hence
    * reading either view at the index matched with an entry of the argument, and going back, gives that entry;
    * the indices (j₀, j₁, j₂) and (r, s') matched with one entry of the argument satisfy j₀ · 256 + j₁ = r, that is
      j₀ = r / 256 and j₁ = r % 256;
    * the sum of a channel's 4096 voxels is the sum of the row's first 2048 entries plus the sum of its last 2048,
      added onto a zero: a finite sum over 2048 + 2048 indices splits, and 0 + a = a. Only the commutative-monoid laws
      of addition are used, which hold on the extended reals without any finiteness.
  The gate depends on the argument only through these sums, so the two gates agree, and so do the two results.
-/
import proofs.«169195_g2000704654976195_pallasbulk_1081_6_alg».proof.Proof.SeSpec
import Idealize.ShloMosaic.Lib.Pipeline.Value
import Idealize.ShloMosaic.Lib.ValueIdx
import Mathlib.Algebra.BigOperators.Fin

noncomputable section

namespace Cert.SeAlgebra

open Idealize.ShloMosaic Idealize.ShloMosaic.ValueIdx Cert.SeSpec

/-- A sum over 4096 indices is the sum over the first 2048 plus the sum over the last 2048. -/
theorem sum_halves {M : Type} [AddCommMonoid M] (f : Fin 4096 → M) :
    ∑ s : Fin 4096, f s = (∑ k : Fin 2048, f ⟨k.val, by omega⟩) + ∑ k : Fin 2048, f ⟨2048 + k.val, by omega⟩ :=
  Fin.sum_univ_add (a := 2048) (b := 2048) f

/-- Entry (b, k, s) of the [32, 256, 4096] view is entry (b · 256 + k, s) of the [8192, 4096] view: the same position. -/
theorem entry_eq (h53 : T5.ShapeCasts T3) (h52 : T5.ShapeCasts T2) (x : T5.Idx → EReal)
    (b : Fin 32) (k : Fin 256) (r : Fin 8192) (hr : r.val = b.val * 256 + k.val) (s : Fin 4096) :
    shapeCast T3 x h53 (ix3 b k s) = shapeCast T2 x h52 (ix2 r s) := by
  unfold shapeCast
  refine congrArg x (Shape.reshapeEquiv_eq_of_rowMajor h53 ?_)
  rw [Shape.rowMajor_reshapeEquiv, Shape.rowMajor_val_three, Shape.rowMajor_val_two]
  show r.val * 4096 + s.val = (b.val * 256 + k.val) * 4096 + s.val
  rw [hr]

/-- A channel's one-sum voxel sum is its row's two-halves sum. -/
theorem voxelSum_eq_halvesSum (h53 : T5.ShapeCasts T3) (h52 : T5.ShapeCasts T2) (x : T5.Idx → EReal)
    (b : Fin 32) (k : Fin 256) (r : Fin 8192) (hr : r.val = b.val * 256 + k.val) :
    voxelSum (shapeCast T3 x h53) b k = halvesSum (shapeCast T2 x h52) r := by
  unfold voxelSum halvesSum
  rw [Ideal.ofBits_zero_f32, zero_add]
  refine (sum_halves fun s => shapeCast T3 x h53 (ix3 b k s)).trans ?_
  exact congrArg₂ (· + ·)
    (Finset.sum_congr rfl fun s _ => entry_eq h53 h52 x b k r hr ⟨s.val, by omega⟩)
    (Finset.sum_congr rfl fun s _ => entry_eq h53 h52 x b k r hr ⟨2048 + s.val, by omega⟩)

/-- The gate depends on the sums only through their values. -/
theorem gate_congr (S S' : Fin 32 → Fin 256 → EReal) (hS : ∀ b k, S b k = S' b k)
    (w1 : (⟨2, ![16, 256]⟩ : Shape).Idx → EReal) (b1 : (⟨1, ![16]⟩ : Shape).Idx → EReal)
    (w2 : (⟨2, ![256, 16]⟩ : Shape).Idx → EReal) (b2 : (⟨1, ![256]⟩ : Shape).Idx → EReal) (b : Fin 32) (c : Fin 256) :
    gate S w1 b1 w2 b2 b c = gate S' w1 b1 w2 b2 b c := by
  have e : S = S' := funext fun b => funext fun k => hS b k
  rw [e]

/-- The result through the [32, 256, 4096] view is the result through the [8192, 4096] view. -/
theorem viaChannels_eq_viaRows (h53 : T5.ShapeCasts T3) (h35 : T3.ShapeCasts T5) (h52 : T5.ShapeCasts T2) (h25 : T2.ShapeCasts T5)
    (x : T5.Idx → EReal)
    (w1 : (⟨2, ![16, 256]⟩ : Shape).Idx → EReal) (b1 : (⟨1, ![16]⟩ : Shape).Idx → EReal)
    (w2 : (⟨2, ![256, 16]⟩ : Shape).Idx → EReal) (b2 : (⟨1, ![256]⟩ : Shape).Idx → EReal) :
    viaChannels h53 h35 x w1 b1 w2 b2 = viaRows h52 h25 x w1 b1 w2 b2 := by
  funext i
  unfold viaChannels viaRows
  have e3 : ∀ G : T3.Idx → EReal, shapeCast T5 G h35 i = G (Shape.reshapeEquiv h35 i) := fun _ => rfl
  have e2 : ∀ G : T2.Idx → EReal, shapeCast T5 G h25 i = G (Shape.reshapeEquiv h25 i) := fun _ => rfl
  rw [e3, e2]
  -- the matched indices have the entry's position, and read the entry back
  have p3 : (T3.rowMajor (Shape.reshapeEquiv h35 i)).val = (T5.rowMajor i).val := Shape.rowMajor_reshapeEquiv h35 i
  have p2 : (T2.rowMajor (Shape.reshapeEquiv h25 i)).val = (T5.rowMajor i).val := Shape.rowMajor_reshapeEquiv h25 i
  have x3 : shapeCast T3 x h53 (Shape.reshapeEquiv h35 i) = x i := by
    unfold shapeCast; rw [Shape.reshapeEquiv_reshapeEquiv, Shape.reshapeEquiv_self]
  have x2 : shapeCast T2 x h52 (Shape.reshapeEquiv h25 i) = x i := by
    unfold shapeCast; rw [Shape.reshapeEquiv_reshapeEquiv, Shape.reshapeEquiv_self]
  generalize Shape.reshapeEquiv h35 i = j3 at p3 x3 ⊢
  generalize Shape.reshapeEquiv h25 i = j2 at p2 x2 ⊢
  have a3 : (T3.rowMajor j3).val = ((j3 0).val * 256 + (j3 1).val) * 4096 + (j3 2).val := Shape.rowMajor_val_three j3
  have a2 : (T2.rowMajor j2).val = (j2 0).val * 4096 + (j2 1).val := Shape.rowMajor_val_two j2
  have l31 : (j3 1).val < 256 := (j3 1).isLt
  have l32 : (j3 2).val < 4096 := (j3 2).isLt
  have l21 : (j2 1).val < 4096 := (j2 1).isLt
  have hrow : (j2 0).val = (j3 0).val * 256 + (j3 1).val := by omega
  have e0 : j3 0 = ⟨(j2 0).val / 256, by have h : (j2 0).val < 8192 := (j2 0).isLt; omega⟩ := Fin.ext (by show (j3 0).val = (j2 0).val / 256; omega)
  have e1 : j3 1 = ⟨(j2 0).val % 256, Nat.mod_lt _ (by norm_num)⟩ := Fin.ext (by show (j3 1).val = (j2 0).val % 256; omega)
  dsimp only
  rw [x3, x2, e0, e1]
  refine congrArg (x i * ·) ?_
  exact gate_congr _ _ (fun b k => voxelSum_eq_halvesSum h53 h52 x b k _ rfl) w1 b1 w2 b2 _ _

end Cert.SeAlgebra

end
-- ==== Proof.lean ====
/-
  A squeeze-and-excitation block over f32[32, 256, 16, 16, 16]: per batch and channel the sum S of the 4096 voxels, the gate
      g(b, c) = logistic( Σ_j max( Σ_k (S(b, k) · 2⁻¹²) · w1(j, k) + b1(j), 0 ) · w2(c, j) + b2(c) ),
  and every voxel of channel c in batch b multiplied by g(b, c).

  The kernel does it in one pipelined region over the input viewed [32, 4096, 256], two batches per grid point, each
  channel's voxels added in one sum. The reference does it in three regions over the input viewed [8192, 4096]: a pool
  region that adds a row's two halves of 2048 entries onto a zero, a gate region on the [32, 256] matrix of those sums,
  and a scale region that multiplies every row by its entry of the gate column. At the ideal values every operation is
  exact, 2⁻¹² is the same literal on both sides, the logistic function is one function on both sides, and a sum of 4096
  extended reals is the sum of its two halves added onto zero: addition of extended reals is associative and commutative,
  so no entry needs to be finite and the precondition is never opened.

  Each side's result array is read off its run as one function of the five arguments (Proof/SeSpec.lean: `viaChannels`
  for the kernel, `viaRows` for the reference), and the two functions are equal (Proof/SeAlgebra.lean). The three frame
  claims are the generated frames. The idealization rewrote no operation, so there is nothing to preserve.
-/
import proofs.«169195_g2000704654976195_pallasbulk_1081_6_alg».proof.Defs
import proofs.«169195_g2000704654976195_pallasbulk_1081_6_alg».proof.Proof.Gen.Kernel
import proofs.«169195_g2000704654976195_pallasbulk_1081_6_alg».proof.Proof.Gen.Kernel.Skeleton
import proofs.«169195_g2000704654976195_pallasbulk_1081_6_alg».proof.Proof.Gen.Kernel.Launch
import proofs.«169195_g2000704654976195_pallasbulk_1081_6_alg».proof.Proof.Gen.Kernel.Points
import proofs.«169195_g2000704654976195_pallasbulk_1081_6_alg».proof.Proof.Gen.Kernel.Frame
import proofs.«169195_g2000704654976195_pallasbulk_1081_6_alg».proof.Proof.Gen.KernelIdeal
import proofs.«169195_g2000704654976195_pallasbulk_1081_6_alg».proof.Proof.Gen.KernelIdeal.Skeleton
import proofs.«169195_g2000704654976195_pallasbulk_1081_6_alg».proof.Proof.Gen.KernelIdeal.Launch
import proofs.«169195_g2000704654976195_pallasbulk_1081_6_alg».proof.Proof.Gen.KernelIdeal.Points
import proofs.«169195_g2000704654976195_pallasbulk_1081_6_alg».proof.Proof.Gen.KernelIdeal.Frame
import proofs.«169195_g2000704654976195_pallasbulk_1081_6_alg».proof.Proof.Gen.ReferenceIdeal
import proofs.«169195_g2000704654976195_pallasbulk_1081_6_alg».proof.Proof.Gen.ReferenceIdeal.Skeleton
import proofs.«169195_g2000704654976195_pallasbulk_1081_6_alg».proof.Proof.Gen.ReferenceIdeal.Launch
import proofs.«169195_g2000704654976195_pallasbulk_1081_6_alg».proof.Proof.Gen.ReferenceIdeal.Points
import proofs.«169195_g2000704654976195_pallasbulk_1081_6_alg».proof.Proof.Gen.ReferenceIdeal.Frame
import proofs.«169195_g2000704654976195_pallasbulk_1081_6_alg».proof.Proof.Gen.Pre_finite_inputs
import proofs.«169195_g2000704654976195_pallasbulk_1081_6_alg».proof.Proof.KernRun
import proofs.«169195_g2000704654976195_pallasbulk_1081_6_alg».proof.Proof.RefValue
import proofs.«169195_g2000704654976195_pallasbulk_1081_6_alg».proof.Proof.SeAlgebra
import Idealize.ShloMosaic.Adequacy
import Idealize.ShloMosaic.Init

noncomputable section

namespace Cert.Proof

open Idealize.ShloMosaic Idealize.SL.Sem

/-- The three programs run, fault nowhere and leave their arguments as launched. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ => Cert.ReferenceIdeal.Gen.frame m ρ

/-- The idealized kernel is the kernel's own text read at the ideal values: no operation was rewritten. -/
theorem preserves : Cert.preserves_Kernel_KernelIdeal := trivial

/-- From memories that agree on the five arguments the kernel's result is the block through the [32, 256, 4096] view and
    the reference's is the block through the [8192, 4096] view of the same arguments: one function. -/
theorem algebraic : Cert.algebraic_KernelIdeal_ReferenceIdeal := by
  intro m ρ m' ρ' _ hagree
  refine ⟨_, Cert.KernelIdeal.SeValue.run m ρ, ?_⟩
  refine (θ_run Cert.ReferenceIdeal.defs _ _).mono (fun r h c => ⟨(h c).1.trans ?_, (h c).2⟩)
    (Cert.ReferenceIdeal.SeValue.run m' ρ')
  rw [(hagree c).1, (hagree c).2.1, (hagree c).2.2.1, (hagree c).2.2.2.1, (hagree c).2.2.2.2]
  exact (Cert.SeAlgebra.viaChannels_eq_viaRows _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
